-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x768 : Shape := ⟨2, ![100000, 768]⟩
abbrev S2x1000000 : Shape := ⟨2, ![2, 1000000]⟩
abbrev S1000000 : Shape := ⟨1, ![1000000]⟩
abbrev S768x128 : Shape := ⟨2, ![768, 128]⟩
abbrev S128 : Shape := ⟨1, ![128]⟩
abbrev S2x2x128x128 : Shape := ⟨4, ![2, 2, 128, 128]⟩
abbrev S2x128x128 : Shape := ⟨3, ![2, 128, 128]⟩
abbrev S2x128 : Shape := ⟨2, ![2, 128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S100000x768 : S_.BroadcastsInDim S100000x768 (![] : Fin 0 → Fin S100000x768.rank)
  reducesTo_S100000x768_S_d0_1 : S100000x768.ReducesTo [0, 1] S_
  h_S_ : 0 < S_.numel
  bcast_S_S768x128 : S_.BroadcastsInDim S768x128 (![] : Fin 0 → Fin S768x128.rank)
  reducesTo_S768x128_S_d0_1 : S768x128.ReducesTo [0, 1] S_
  bcast_S_S128 : S_.BroadcastsInDim S128 (![] : Fin 0 → Fin S128.rank)
  reducesTo_S128_S_d0 : S128.ReducesTo [0] S_
  bcast_S_S2x2x128x128 : S_.BroadcastsInDim S2x2x128x128 (![] : Fin 0 → Fin S2x2x128x128.rank)
  reducesTo_S2x2x128x128_S_d0_1_2_3 : S2x2x128x128.ReducesTo [0, 1, 2, 3] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S128 .f32) (main_arg10 : FVec F S128x2 .f32) (main_arg11 : FVec F S2 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x2 .f32 := Host.absf main_arg10
  let main_cst_14 : FVec F S_ .f32 := constant S_ .f32 0x7F800000#32
  let main_v40 : FVec F S128x2 .f32 := broadcastInDim S128x2 ![] bcast_S_S128x2 main_cst_14
  let main_v41 : IVec S128x2 1 := cmpf .olt main_v39 main_v40
  let main_c_15 : IVec S_ 1 := constantI S_ 1 1#1
  let main_v42 : IVec S_ 1 := (fun x v => Host.reduce IntOp.andi x v reducesTo_S128x2_S_d0_1 h_S_) main_v41 main_c_15
  let main_v43 : IVec S_ 1 := andi main_v38 main_v42
  let main_v44 : FVec F S2 .f32 := Host.absf main_arg11
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg6 : FVec F S2x128x128 .f32) (main_arg7 : FVec F S2x128 .f32) (main_arg8 : FVec F S128x128 .f32) (main_arg9 : FVec F S128 .f32) (main_arg10 : FVec F S128x2 .f32) (main_arg11 : FVec F S2 .f32) (main_v13 : IVec S_ 1) (main_v16 : IVec S2x2x128x128 1) : IVec S_ 1 :=
  let main_c_5 : IVec S_ 1 := constantI S_ 1 1#1
  let main_v17 : IVec S_ 1 := (fun x v => Host.reduce IntOp.andi x v reducesTo_S2x2x128x128_S_d0_1_2_3 h_S_) main_v16 main_c_5
  let main_v18 : IVec S_ 1 := andi main_v13 main_v17
  let main_v19 : FVec F S2x128x128 .f32 := Host.absf main_arg6
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S2x128 .f32 := Host.absf main_arg7
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x768 .f32) (main_arg1 : IVec S2x1000000 32) (main_arg2 : IVec S1000000 32) (main_arg3 : FVec F S768x128 .f32) (main_arg4 : FVec F S128 .f32) (main_arg5 : FVec F S2x2x128x128 .f32) (main_arg6 : FVec F S2x128x128 .f32) (main_arg7 : FVec F S2x128 .f32) (main_arg8 : FVec F S128x128 .f32) (main_arg9 : FVec F S128 .f32) (main_arg10 : FVec F S128x2 .f32) (main_arg11 : FVec F S2 .f32) : IVec S_ 1 :=
  let main_v0 : FVec F S100000x768 .f32 := Host.absf main_arg0
  let main_cst : FVec F S_ .f32 := constant S_ .f32 0x7F800000#32
  let main_v1 : FVec F S100000x768 .f32 := broadcastInDim S100000x768 ![] bcast_S_S100000x768 main_cst
  let main_v2 : IVec S100000x768 1 := cmpf .olt main_v0 main_v1
  let main_c : IVec S_ 1 := constantI S_ 1 1#1
  let main_v3 : IVec S_ 1 := (fun x v => Host.reduce IntOp.andi x v reducesTo_S100000x768_S_d0_1 h_S_) main_v2 main_c
  let main_v4 : FVec F S768x128 .f32 := Host.absf main_arg3
  let main_cst_0 : FVec F S_ .f32 := constant S_ .f32 0x7F800000#32
  let main_v5 : FVec F S768x128 .f32 := broadcastInDim S768x128 ![] bcast_S_S768x128 main_cst_0
  let main_v6 : IVec S768x128 1 := cmpf .olt main_v4 main_v5
  let main_c_1 : IVec S_ 1 := constantI S_ 1 1#1
  let main_v7 : IVec S_ 1 := (fun x v => Host.reduce IntOp.andi x v reducesTo_S768x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S2x2x128x128 .f32 := Host.absf main_arg5
  let main_cst_4 : FVec F S_ .f32 := constant S_ .f32 0x7F800000#32
  let main_v15 : FVec F S2x2x128x128 .f32 := broadcastInDim S2x2x128x128 ![] bcast_S_S2x2x128x128 main_cst_4
  let main_v16 : IVec S2x2x128x128 1 := cmpf .olt main_v14 main_v15
  fn_part1 (F := F) main_arg6 main_arg7 main_arg8 main_arg9 main_arg10 main_arg11 main_v13 main_v16
-- ==== Kernel.lean ====
abbrev S100000x768 : Shape := ⟨2, ![100000, 768]⟩
abbrev S2x1000000 : Shape := ⟨2, ![2, 1000000]⟩
abbrev S1000000 : Shape := ⟨1, ![1000000]⟩
abbrev S768x128 : Shape := ⟨2, ![768, 128]⟩
abbrev S128 : Shape := ⟨1, ![128]⟩
abbrev S2x2x128x128 : Shape := ⟨4, ![2, 2, 128, 128]⟩
abbrev S2x128x128 : Shape := ⟨3, ![2, 128, 128]⟩
abbrev S2x128 : Shape := ⟨2, ![2, 128]⟩
abbrev S128x128 : Shape := ⟨2, ![128, 128]⟩
abbrev S128x2 : Shape := ⟨2, ![128, 2]⟩
abbrev S2 : Shape := ⟨1, ![2]⟩
abbrev S1x1000000 : Shape := ⟨2, ![1, 1000000]⟩
abbrev S1x128 : Shape := ⟨2, ![1, 128]⟩
abbrev S1x2 : Shape := ⟨2, ![1, 2]⟩
abbrev S100000x128 : Shape := ⟨2, ![100000, 128]⟩
abbrev S2000x768 : Shape := ⟨2, ![2000, 768]⟩
abbrev S2000x128 : Shape := ⟨2, ![2000, 128]⟩
abbrev S_ : Shape := ⟨0, ![]⟩
abbrev S1000000x1 : Shape := ⟨2, ![1000000, 1]⟩
abbrev S1000000x128 : Shape := ⟨2, ![1000000, 128]⟩
abbrev S100000 : Shape := ⟨1, ![100000]⟩
abbrev S100000x1 : Shape := ⟨2, ![100000, 1]⟩
abbrev S1x128x128 : Shape := ⟨3, ![1, 128, 128]⟩
abbrev S1x1x128x128 : Shape := ⟨4, ![1, 1, 128, 128]⟩
abbrev S5000x128 : Shape := ⟨2, ![5000, 128]⟩
abbrev S100000x2 : Shape := ⟨2, ![100000, 2]⟩
abbrev S5000x2 : Shape := ⟨2, ![5000, 2]⟩

abbrev nBuf : Space → Nat
  | .hbm => 143
  | .vmem => 38
  | .smem => 0
  | _ => 0

abbrev hbmTy0_0 (i : Nat) : BufTy := match i % 128 with
  | 0 => ⟨S100000x768, .f32⟩
  | 1 => ⟨S2x1000000, .i32⟩
  | 2 => ⟨S1000000, .i32⟩
  | 3 => ⟨S768x128, .f32⟩
  | 4 => ⟨S128, .f32⟩
  | 5 => ⟨S2x2x128x128, .f32⟩
  | 6 => ⟨S2x128x128, .f32⟩
  | 7 => ⟨S2x128, .f32⟩
  | 8 => ⟨S128x128, .f32⟩
  | 9 => ⟨S128, .f32⟩
  | 10 => ⟨S128x2, .f32⟩
  | 11 => ⟨S2, .f32⟩
  | 12 => ⟨S1x1000000, .i32⟩
  | 13 => ⟨S1000000, .i32⟩
  | 14 => ⟨S1x1000000, .i32⟩
  | 15 => ⟨S1000000, .i32⟩
  | 16 => ⟨S1x128, .f32⟩
  | 17 => ⟨S1x128, .f32⟩
  | 18 => ⟨S1x2, .f32⟩
  | 19 => ⟨S100000x128, .f32⟩
  | 20 => ⟨S_, .i32⟩
  | 21 => ⟨S1000000, .i32⟩
  | 22 => ⟨S1000000, .i1⟩
  | 23 => ⟨S_, .i32⟩
  | 24 => ⟨S1000000, .i32⟩
  | 25 => ⟨S1000000, .i32⟩
  | 26 => ⟨S1000000, .i32⟩
  | 27 => ⟨S1000000x1, .i32⟩
  | 28 => ⟨S1000000x128, .f32⟩
  | 29 => ⟨S_, .i32⟩
  | 30 => ⟨S1000000, .i32⟩
  | 31 => ⟨S1000000, .i1⟩
  | 32 => ⟨S1000000, .f32⟩
  | 33 => ⟨S1000000x1, .f32⟩
  | 34 => ⟨S1000000x128, .f32⟩
  | 35 => ⟨S1000000x128, .f32⟩
  | 36 => ⟨S_, .f32⟩
  | 37 => ⟨S100000x128, .f32⟩
  | 38 => ⟨S1000000x1, .i32⟩
  | 39 => ⟨S100000x128, .f32⟩
  | 40 => ⟨S_, .f32⟩
  | 41 => ⟨S100000, .f32⟩
  | 42 => ⟨S1000000x1, .i32⟩
  | 43 => ⟨S100000, .f32⟩
  | 44 => ⟨S_, .f32⟩
  | 45 => ⟨S100000, .f32⟩
  | 46 => ⟨S100000, .f32⟩
  | 47 => ⟨S100000x1, .f32⟩
  | 48 => ⟨S100000x128, .f32⟩
  | 49 => ⟨S100000x128, .f32⟩
  | 50 => ⟨S_, .i32⟩
  | 51 => ⟨S1000000, .i32⟩
  | 52 => ⟨S1000000, .i1⟩
  | 53 => ⟨S1000000, .f32⟩
  | 54 => ⟨S1000000x1, .f32⟩
  | 55 => ⟨S1000000x128, .f32⟩
  | 56 => ⟨S1000000x128, .f32⟩
  | 57 => ⟨S_, .f32⟩
  | 58 => ⟨S100000x128, .f32⟩
  | 59 => ⟨S1000000x1, .i32⟩
  | 60 => ⟨S100000x128, .f32⟩
  | 61 => ⟨S_, .f32⟩
  | 62 => ⟨S100000, .f32⟩
  | 63 => ⟨S1000000x1, .i32⟩
  | 64 => ⟨S100000, .f32⟩
  | 65 => ⟨S_, .f32⟩
  | 66 => ⟨S100000, .f32⟩
  | 67 => ⟨S100000, .f32⟩
  | 68 => ⟨S100000x1, .f32⟩
  | 69 => ⟨S100000x128, .f32⟩
  | 70 => ⟨S100000x128, .f32⟩
  | 71 => ⟨S1x128, .f32⟩
  | 72 => ⟨S128, .f32⟩
  | 73 => ⟨S1x128, .f32⟩
  | 74 => ⟨S1x128x128, .f32⟩
  | 75 => ⟨S128x128, .f32⟩
  | 76 => ⟨S1x1x128x128, .f32⟩
  | 77 => ⟨S128x128, .f32⟩
  | 78 => ⟨S1x1x128x128, .f32⟩
  | 79 => ⟨S128x128, .f32⟩
  | 80 => ⟨S100000x128, .f32⟩
  | 81 => ⟨S_, .i32⟩
  | 82 => ⟨S1000000, .i32⟩
  | 83 => ⟨S1000000, .i1⟩
  | 84 => ⟨S_, .i32⟩
  | 85 => ⟨S1000000, .i32⟩
  | 86 => ⟨S1000000, .i32⟩
  | 87 => ⟨S1000000, .i32⟩
  | 88 => ⟨S1000000x1, .i32⟩
  | 89 => ⟨S1000000x128, .f32⟩
  | 90 => ⟨S_, .i32⟩
  | 91 => ⟨S1000000, .i32⟩
  | 92 => ⟨S1000000, .i1⟩
  | 93 => ⟨S1000000, .f32⟩
  | 94 => ⟨S1000000x1, .f32⟩
  | 95 => ⟨S1000000x128, .f32⟩
  | 96 => ⟨S1000000x128, .f32⟩
  | 97 => ⟨S_, .f32⟩
  | 98 => ⟨S100000x128, .f32⟩
  | 99 => ⟨S1000000x1, .i32⟩
  | 100 => ⟨S100000x128, .f32⟩
  | 101 => ⟨S_, .f32⟩
  | 102 => ⟨S100000, .f32⟩
  | 103 => ⟨S1000000x1, .i32⟩
  | 104 => ⟨S100000, .f32⟩
  | 105 => ⟨S_, .f32⟩
  | 106 => ⟨S100000, .f32⟩
  | 107 => ⟨S100000, .f32⟩
  | 108 => ⟨S100000x1, .f32⟩
  | 109 => ⟨S100000x128, .f32⟩
  | 110 => ⟨S100000x128, .f32⟩
  | 111 => ⟨S_, .i32⟩
  | 112 => ⟨S1000000, .i32⟩
  | 113 => ⟨S1000000, .i1⟩
  | 114 => ⟨S1000000, .f32⟩
  | 115 => ⟨S1000000x1, .f32⟩
  | 116 => ⟨S1000000x128, .f32⟩
  | 117 => ⟨S1000000x128, .f32⟩
  | 118 => ⟨S_, .f32⟩
  | 119 => ⟨S100000x128, .f32⟩
  | 120 => ⟨S1000000x1, .i32⟩
  | 121 => ⟨S100000x128, .f32⟩
  | 122 => ⟨S_, .f32⟩
  | 123 => ⟨S100000, .f32⟩
  | 124 => ⟨S1000000x1, .i32⟩
  | 125 => ⟨S100000, .f32⟩
  | 126 => ⟨S_, .f32⟩
  | 127 => ⟨S100000, .f32⟩
  | _ => ⟨S100000x768, .f32⟩

abbrev hbmTy0_1 (i : Nat) : BufTy := match i % 128 with
  | 0 => ⟨S100000, .f32⟩
  | 1 => ⟨S100000x1, .f32⟩
  | 2 => ⟨S100000x128, .f32⟩
  | 3 => ⟨S100000x128, .f32⟩
  | 4 => ⟨S1x128, .f32⟩
  | 5 => ⟨S128, .f32⟩
  | 6 => ⟨S1x128, .f32⟩
  | 7 => ⟨S1x128x128, .f32⟩
  | 8 => ⟨S128x128, .f32⟩
  | 9 => ⟨S1x1x128x128, .f32⟩
  | 10 => ⟨S128x128, .f32⟩
  | 11 => ⟨S1x1x128x128, .f32⟩
  | 12 => ⟨S128x128, .f32⟩
  | 13 => ⟨S100000x128, .f32⟩
  | 14 => ⟨S100000x2, .f32⟩
  | _ => ⟨S100000x768, .f32⟩

abbrev hbmTy (i : Nat) : BufTy := match i / 128 with
  | 0 => hbmTy0_0 i
  | 1 => hbmTy0_1 i
  | _ => ⟨S100000x768, .f32⟩

abbrev bufTy : (tb : Table) → Fin (tcTables nBuf tb) → BufTy
  | .hbm, ⟨i, _⟩ => hbmTy i
  | .local _ .vmem, ⟨0, _⟩ => ⟨S2000x768, .f32⟩
  | .local _ .vmem, ⟨1, _⟩ => ⟨S2000x768, .f32⟩
  | .local _ .vmem, ⟨2, _⟩ => ⟨S768x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S1x128, .f32⟩
  | .local _ .vmem, ⟨34, _⟩ => ⟨S128x2, .f32⟩
  | .local _ .vmem, ⟨35, _⟩ => ⟨S1x2, .f32⟩
  | .local _ .vmem, ⟨36, _⟩ => ⟨S5000x2, .f32⟩
  | .local _ .vmem, ⟨37, _⟩ => ⟨S5000x2, .f32⟩
  | _, _ => ⟨S100000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_8 : Ref sig .tc := ⟨.hbm, 81, rfl⟩
abbrev main_v59 : Ref sig .tc := ⟨.hbm, 82, rfl⟩
abbrev main_v60 : Ref sig .tc := ⟨.hbm, 83, rfl⟩
abbrev main_c_9 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_10 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_11 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_12 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_13 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_c_14 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_15 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_16 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_17 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x2 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  shapeCasts_S128_S1x128 : S128.ShapeCasts S1x128
  shapeCasts_S2_S1x2 : S2.ShapeCasts S1x2
  inb_S2000x768_S2000x768_0_0 : ∀ a, (![0, 0] : Fin 2 → Nat) a + S2000x768.size a ≤ S2000x768.size a
  h_S2000x768 : 0 < S2000x768.numel
  bitsLt_bf16_f32 : FTy.bits .bf16 < FTy.bits .f32
  inb_S768x128_S768x128_0_0 : ∀ a, (![0, 0] : Fin 2 → Nat) a + S768x128.size a ≤ S768x128.size a
  h_S768x128 : 0 < S768x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x128_0_1 : S1000000x1.BroadcastsInDim S1000000x128 (![0, 1] : Fin 2 → Fin S1000000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S2x128_S1x128_0_0 : S2x128.Slices ![0, 0] S1x128
  shapeCasts_S1x128_S128 : S1x128.ShapeCasts S128
  slices_S2x128x128_S1x128x128_0_0_0 : S2x128x128.Slices ![0, 0, 0] S1x128x128
  shapeCasts_S1x128x128_S128x128 : S1x128x128.ShapeCasts S128x128
  slices_S2x2x128x128_S1x1x128x128_0_0_0_0 : S2x2x128x128.Slices ![0, 0, 0, 0] S1x1x128x128
  shapeCasts_S1x1x128x128_S128x128 : S1x1x128x128.ShapeCasts S128x128
  slices_S2x2x128x128_S1x1x128x128_0_1_0_0 : S2x2x128x128.Slices ![0, 1, 0, 0] S1x1x128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  slices_S2x128_S1x128_1_0 : S2x128.Slices ![1, 0] S1x128
  slices_S2x128x128_S1x128x128_1_0_0 : S2x128x128.Slices ![1, 0, 0] S1x128x128
  slices_S2x2x128x128_S1x1x128x128_1_0_0_0 : S2x2x128x128.Slices ![1, 0, 0, 0] S1x1x128x128
  slices_S2x2x128x128_S1x1x128x128_1_1_0_0 : S2x2x128x128.Slices ![1, 1, 0, 0] S1x1x128x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  dot_S2000x768_S768x128_S2000x128_1_0_0_1_n_n_wf : DotDims.WF S2000x768 S768x128 S2000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S5000x128_S128x128_S5000x128_1_0_0_1_n_n_wf : DotDims.WF S5000x128 S128x128 S5000x128 [1] [0] [0] [1] [] []
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S100000x768.size a
  hwx0_0 : ∀ i : grid0.Coords, EltTy.bits .f32 = 32 ∨ (Rect.block (s := S100000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x128.size a ≤ S768x128.size a
  hwx0_1 : ∀ i : grid0.Coords, EltTy.bits .f32 = 32 ∨ (Rect.block (s := S768x128) S768x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x2.size a ≤ S128x2.size a
  hwx3_3 : ∀ i : grid3.Coords, EltTy.bits .f32 = 32 ∨ (Rect.block (s := S128x2) S128x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x2.size a ≤ S1x2.size a
  hwx3_4 : ∀ i : grid3.Coords, EltTy.bits .f32 = 32 ∨ (Rect.block (s := S1x2) S1x2.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x2.size a ≤ S100000x2.size a
  hwx3_5 : ∀ i : grid3.Coords, EltTy.bits .f32 = 32 ∨ (Rect.block (s := S100000x2) S5000x2.size (cc3_transform_5 i) (hinb3_5 i)).WholeWords (EltTy.packing .f32)

variable [Facts₀]

def dot_S2000x768_S768x128_S2000x128_1_0_0_1_n_n : DotDims S2000x768 S768x128 S2000x128 where
  lhsContracting := [1]
  rhsContracting := [0]
  lhsNonContracting := [0]
  rhsNonContracting := [1]
  lhsBatch := []
  rhsBatch := []
  wf := dot_S2000x768_S768x128_S2000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_arg0) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S768x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v53) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v55) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v58) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v82) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v99) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v104) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v106) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v108) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v102) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v109) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v109) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v5) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S128x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v6) S1x2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v110) S5000x2.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x768 : Shape := ⟨2, ![100000, 768]⟩
abbrev S2x1000000 : Shape := ⟨2, ![2, 1000000]⟩
abbrev S1000000 : Shape := ⟨1, ![1000000]⟩
abbrev S768x128 : Shape := ⟨2, ![768, 128]⟩
abbrev S128 : Shape := ⟨1, ![128]⟩
abbrev S2x2x128x128 : Shape := ⟨4, ![2, 2, 128, 128]⟩
abbrev S2x128x128 : Shape := ⟨3, ![2, 128, 128]⟩
abbrev S2x128 : Shape := ⟨2, ![2, 128]⟩
abbrev S128x128 : Shape := ⟨2, ![128, 128]⟩
abbrev S128x2 : Shape := ⟨2, ![128, 2]⟩
abbrev S2 : Shape := ⟨1, ![2]⟩
abbrev S1x1000000 : Shape := ⟨2, ![1, 1000000]⟩
abbrev S100000x128 : Shape := ⟨2, ![100000, 128]⟩
abbrev S1x128 : Shape := ⟨2, ![1, 128]⟩
abbrev S_ : Shape := ⟨0, ![]⟩
abbrev S1000000x1 : Shape := ⟨2, ![1000000, 1]⟩
abbrev S1000000x128 : Shape := ⟨2, ![1000000, 128]⟩
abbrev S1x128x128 : Shape := ⟨3, ![1, 128, 128]⟩
abbrev S100000 : Shape := ⟨1, ![100000]⟩
abbrev S100000x1 : Shape := ⟨2, ![100000, 1]⟩
abbrev S1x1x128x128 : Shape := ⟨4, ![1, 1, 128, 128]⟩
abbrev S100000x2 : Shape := ⟨2, ![100000, 2]⟩
abbrev S1x2 : Shape := ⟨2, ![1, 2]⟩

abbrev nBuf : Space → Nat
  | .hbm => 171
  | .vmem => 0
  | .smem => 0
  | _ => 0

abbrev hbmTy0_0 (i : Nat) : BufTy := match i % 128 with
  | 0 => ⟨S100000x768, .f32⟩
  | 1 => ⟨S2x1000000, .i32⟩
  | 2 => ⟨S1000000, .i32⟩
  | 3 => ⟨S768x128, .f32⟩
  | 4 => ⟨S128, .f32⟩
  | 5 => ⟨S2x2x128x128, .f32⟩
  | 6 => ⟨S2x128x128, .f32⟩
  | 7 => ⟨S2x128, .f32⟩
  | 8 => ⟨S128x128, .f32⟩
  | 9 => ⟨S128, .f32⟩
  | 10 => ⟨S128x2, .f32⟩
  | 11 => ⟨S2, .f32⟩
  | 12 => ⟨S1x1000000, .i32⟩
  | 13 => ⟨S1000000, .i32⟩
  | 14 => ⟨S1x1000000, .i32⟩
  | 15 => ⟨S1000000, .i32⟩
  | 16 => ⟨S100000x128, .f32⟩
  | 17 => ⟨S1x128, .f32⟩
  | 18 => ⟨S100000x128, .f32⟩
  | 19 => ⟨S100000x128, .f32⟩
  | 20 => ⟨S_, .i32⟩
  | 21 => ⟨S1000000, .i32⟩
  | 22 => ⟨S1000000, .i1⟩
  | 23 => ⟨S_, .i32⟩
  | 24 => ⟨S1000000, .i32⟩
  | 25 => ⟨S1000000, .i32⟩
  | 26 => ⟨S1000000, .i32⟩
  | 27 => ⟨S1000000x1, .i32⟩
  | 28 => ⟨S1000000x128, .f32⟩
  | 29 => ⟨S1x128x128, .f32⟩
  | 30 => ⟨S128x128, .f32⟩
  | 31 => ⟨S100000x128, .f32⟩
  | 32 => ⟨S1x128, .f32⟩
  | 33 => ⟨S128, .f32⟩
  | 34 => ⟨S1x128, .f32⟩
  | 35 => ⟨S100000x128, .f32⟩
  | 36 => ⟨S100000x128, .f32⟩
  | 37 => ⟨S_, .i32⟩
  | 38 => ⟨S1000000, .i32⟩
  | 39 => ⟨S1000000, .i1⟩
  | 40 => ⟨S1000000, .f32⟩
  | 41 => ⟨S1000000x1, .f32⟩
  | 42 => ⟨S1000000x128, .f32⟩
  | 43 => ⟨S1000000x128, .f32⟩
  | 44 => ⟨S_, .f32⟩
  | 45 => ⟨S100000x128, .f32⟩
  | 46 => ⟨S1000000x1, .i32⟩
  | 47 => ⟨S100000x128, .f32⟩
  | 48 => ⟨S_, .f32⟩
  | 49 => ⟨S100000, .f32⟩
  | 50 => ⟨S1000000x1, .i32⟩
  | 51 => ⟨S100000, .f32⟩
  | 52 => ⟨S_, .f32⟩
  | 53 => ⟨S100000, .f32⟩
  | 54 => ⟨S100000, .f32⟩
  | 55 => ⟨S100000x1, .f32⟩
  | 56 => ⟨S100000x128, .f32⟩
  | 57 => ⟨S100000x128, .f32⟩
  | 58 => ⟨S1x1x128x128, .f32⟩
  | 59 => ⟨S128x128, .f32⟩
  | 60 => ⟨S100000x128, .f32⟩
  | 61 => ⟨S100000x128, .f32⟩
  | 62 => ⟨S_, .i32⟩
  | 63 => ⟨S1000000, .i32⟩
  | 64 => ⟨S1000000, .i1⟩
  | 65 => ⟨S1000000, .f32⟩
  | 66 => ⟨S1000000x1, .f32⟩
  | 67 => ⟨S1000000x128, .f32⟩
  | 68 => ⟨S1000000x128, .f32⟩
  | 69 => ⟨S_, .f32⟩
  | 70 => ⟨S100000x128, .f32⟩
  | 71 => ⟨S1000000x1, .i32⟩
  | 72 => ⟨S100000x128, .f32⟩
  | 73 => ⟨S_, .f32⟩
  | 74 => ⟨S100000, .f32⟩
  | 75 => ⟨S1000000x1, .i32⟩
  | 76 => ⟨S100000, .f32⟩
  | 77 => ⟨S_, .f32⟩
  | 78 => ⟨S100000, .f32⟩
  | 79 => ⟨S100000, .f32⟩
  | 80 => ⟨S100000x1, .f32⟩
  | 81 => ⟨S100000x128, .f32⟩
  | 82 => ⟨S100000x128, .f32⟩
  | 83 => ⟨S1x1x128x128, .f32⟩
  | 84 => ⟨S128x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S_, .i32⟩
  | 91 => ⟨S1000000, .i32⟩
  | 92 => ⟨S1000000, .i1⟩
  | 93 => ⟨S_, .i32⟩
  | 94 => ⟨S1000000, .i32⟩
  | 95 => ⟨S1000000, .i32⟩
  | 96 => ⟨S1000000, .i32⟩
  | 97 => ⟨S1000000x1, .i32⟩
  | 98 => ⟨S1000000x128, .f32⟩
  | 99 => ⟨S1x128x128, .f32⟩
  | 100 => ⟨S128x128, .f32⟩
  | 101 => ⟨S100000x128, .f32⟩
  | 102 => ⟨S1x128, .f32⟩
  | 103 => ⟨S128, .f32⟩
  | 104 => ⟨S1x128, .f32⟩
  | 105 => ⟨S100000x128, .f32⟩
  | 106 => ⟨S100000x128, .f32⟩
  | 107 => ⟨S_, .i32⟩
  | 108 => ⟨S1000000, .i32⟩
  | 109 => ⟨S1000000, .i1⟩
  | 110 => ⟨S1000000, .f32⟩
  | 111 => ⟨S1000000x1, .f32⟩
  | 112 => ⟨S1000000x128, .f32⟩
  | 113 => ⟨S1000000x128, .f32⟩
  | 114 => ⟨S_, .f32⟩
  | 115 => ⟨S100000x128, .f32⟩
  | 116 => ⟨S1000000x1, .i32⟩
  | 117 => ⟨S100000x128, .f32⟩
  | 118 => ⟨S_, .f32⟩
  | 119 => ⟨S100000, .f32⟩
  | 120 => ⟨S1000000x1, .i32⟩
  | 121 => ⟨S100000, .f32⟩
  | 122 => ⟨S_, .f32⟩
  | 123 => ⟨S100000, .f32⟩
  | 124 => ⟨S100000, .f32⟩
  | 125 => ⟨S100000x1, .f32⟩
  | 126 => ⟨S100000x128, .f32⟩
  | 127 => ⟨S100000x128, .f32⟩
  | _ => ⟨S100000x768, .f32⟩

abbrev hbmTy0_1 (i : Nat) : BufTy := match i % 128 with
  | 0 => ⟨S1x1x128x128, .f32⟩
  | 1 => ⟨S128x128, .f32⟩
  | 2 => ⟨S100000x128, .f32⟩
  | 3 => ⟨S100000x128, .f32⟩
  | 4 => ⟨S_, .i32⟩
  | 5 => ⟨S1000000, .i32⟩
  | 6 => ⟨S1000000, .i1⟩
  | 7 => ⟨S1000000, .f32⟩
  | 8 => ⟨S1000000x1, .f32⟩
  | 9 => ⟨S1000000x128, .f32⟩
  | 10 => ⟨S1000000x128, .f32⟩
  | 11 => ⟨S_, .f32⟩
  | 12 => ⟨S100000x128, .f32⟩
  | 13 => ⟨S1000000x1, .i32⟩
  | 14 => ⟨S100000x128, .f32⟩
  | 15 => ⟨S_, .f32⟩
  | 16 => ⟨S100000, .f32⟩
  | 17 => ⟨S1000000x1, .i32⟩
  | 18 => ⟨S100000, .f32⟩
  | 19 => ⟨S_, .f32⟩
  | 20 => ⟨S100000, .f32⟩
  | 21 => ⟨S100000, .f32⟩
  | 22 => ⟨S100000x1, .f32⟩
  | 23 => ⟨S100000x128, .f32⟩
  | 24 => ⟨S100000x128, .f32⟩
  | 25 => ⟨S1x1x128x128, .f32⟩
  | 26 => ⟨S128x128, .f32⟩
  | 27 => ⟨S100000x128, .f32⟩
  | 28 => ⟨S100000x128, .f32⟩
  | 29 => ⟨S_, .f32⟩
  | 30 => ⟨S100000x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S_, .f32⟩
  | 37 => ⟨S100000x128, .f32⟩
  | 38 => ⟨S100000x128, .f32⟩
  | 39 => ⟨S100000x2, .f32⟩
  | 40 => ⟨S1x2, .f32⟩
  | 41 => ⟨S100000x2, .f32⟩
  | 42 => ⟨S100000x2, .f32⟩
  | _ => ⟨S100000x768, .f32⟩

abbrev hbmTy (i : Nat) : BufTy := match i / 128 with
  | 0 => hbmTy0_0 i
  | 1 => hbmTy0_1 i
  | _ => ⟨S100000x768, .f32⟩

abbrev bufTy : (tb : Table) → Fin (tcTables nBuf tb) → BufTy
  | .hbm, ⟨i, _⟩ => hbmTy i
  | _, _ => ⟨S100000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_2 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_4 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_5 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_6 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_7 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_call0_cst : Ref sig .tc := ⟨.hbm, 87, rfl⟩
abbrev main_call0_v0 : Ref sig .tc := ⟨.hbm, 88, rfl⟩
abbrev main_v65 : Ref sig .tc := ⟨.hbm, 89, rfl⟩
abbrev main_c_8 : Ref sig .tc := ⟨.hbm, 90, rfl⟩
abbrev main_v66 : Ref sig .tc := ⟨.hbm, 91, rfl⟩
abbrev main_v67 : Ref sig .tc := ⟨.hbm, 92, rfl⟩
abbrev main_c_9 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_c_10 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_11 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_12 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_13 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_c_14 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_15 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_16 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_cst_17 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_call1_cst : Ref sig .tc := ⟨.hbm, 157, rfl⟩
abbrev main_call1_v0 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_call2_cst : Ref sig .tc := ⟨.hbm, 164, rfl⟩
abbrev main_call2_v0 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S1000000x1_S1000000x128_0_1 : S1000000x1.BroadcastsInDim S1000000x128 (![0, 1] : Fin 2 → Fin S1000000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S2x2x128x128_S1x1x128x128_0_0_0_0 : S2x2x128x128.Slices ![0, 0, 0, 0] S1x1x128x128
  shapeCasts_S1x1x128x128_S128x128 : S1x1x128x128.ShapeCasts S128x128
  slices_S2x2x128x128_S1x1x128x128_0_1_0_0 : S2x2x128x128.Slices ![0, 1, 0, 0] S1x1x128x128
  slices_S2x128x128_S1x128x128_1_0_0 : S2x128x128.Slices ![1, 0, 0] S1x128x128
  slices_S2x128_S1x128_1_0 : S2x128.Slices ![1, 0] S1x128
  slices_S2x2x128x128_S1x1x128x128_1_0_0_0 : S2x2x128x128.Slices ![1, 0, 0, 0] S1x1x128x128
  slices_S2x2x128x128_S1x1x128x128_1_1_0_0 : S2x2x128x128.Slices ![1, 1, 0, 0] S1x1x128x128
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x768_S768x128_S100000x128_1_0_0_1_n_n_wf : DotDims.WF S100000x768 S768x128 S100000x128 [1] [0] [0] [1] [] []
  gather_S100000x128_S1000000x1_S1000000x128_1_0_n_n_0_1_1128_wf : GatherDims.WF S100000x128 S1000000x1 S1000000x128 [1] [0] [] [0] [] 1 ![1, 128]
  dot_S100000x128_S128x128_S100000x128_1_0_0_1_n_n_wf : DotDims.WF S100000x128 S128x128 S100000x128 [1] [0] [0] [1] [] []
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S100000x128_S128x2_S100000x2_1_0_0_1_n_n_wf : DotDims.WF S100000x128 S128x2 S100000x2 [1] [0] [0] [1] [] []

variable [Facts₀]

def dot_S100000x768_S768x128_S100000x128_1_0_0_1_n_n : DotDims S100000x768 S768x128 S100000x128 where
  lhsContracting := [1]
  rhsContracting := [0]
  lhsNonContracting := [0]
  rhsNonContracting := [1]
  lhsBatch := []
  rhsBatch := []
  wf := dot_S100000x768_S768x128_S100000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.KRun.lean ====
/-
  The idealized kernel's run, with its result kept.

  @main is four pipelined regions among stretches of host operations. Every weakly fair execution terminates without a
  fault, and at the end every unscoped buffer of a core holds the last boundary's contents: the fold of the segments
  from the launch memory (each host stretch applies its operations, each region leaves its arrays at what its
  write-backs fold to). Read at the result buffer this is the fourth region's output array; read at an argument it is
  the launch contents, since no segment writes an argument.
-/
import proofs.«171730_j7868380086413_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v110) = W7 m ρ c (Proc.devRef .tc main_v110)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v110 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c)⟩)

end Cert.KernelIdeal.Hand

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.Spec.lean ====
/-
  The network's four dense stages as whole-array functions, index by index, over the extended reals.

  Nodes are rows. A stage's entry (r, q) depends on row r of each node-indexed operand and on the whole of each weight:
    * the input projection:  (x · W) (r, q) + b q;
    * a relational layer:    max (h · R + a0 · W0 + a1 · W1 + b) 0, where a0 and a1 are the per-relation mean aggregates;
    * the pooling head:      (max (h · Wp + bp) 0) · Wo + bo.
  A bias arrives as a one-row matrix. Matrix products are plain sums over the shared axis. The sums of a relational layer
  may be added in any order: addition of extended reals is commutative and associative (`layer_sum_comm`).
-/
import Idealize.ShloMosaic.Lib.ValueIdx
import Idealize.ShloMosaic.PureOps.Ideal

noncomputable section

namespace Cert.Rgcn

open Idealize.ShloMosaic Idealize.ShloMosaic.ValueIdx

/-- The rectifier's threshold: the word of +0.0 read as an extended real. -/
abbrev zeroWord : EReal := Ideal.ofBits .f32 0x00000000#32

/-- Entry (r, q) of a matrix product: the sum over the shared axis. -/
def dotAt {M K N : Nat} (A : (⟨2, ![M, K]⟩ : Shape).Idx → EReal) (W : (⟨2, ![K, N]⟩ : Shape).Idx → EReal)
    (r : Fin M) (q : Fin N) : EReal :=
  ∑ k : Fin K, A (ix2 r k) * W (ix2 k q)

/-- The input projection x · W + b. -/
def project (x : (⟨2, ![100000, 768]⟩ : Shape).Idx → EReal) (W : (⟨2, ![768, 128]⟩ : Shape).Idx → EReal)
    (b : (⟨2, ![1, 128]⟩ : Shape).Idx → EReal) : (⟨2, ![100000, 128]⟩ : Shape).Idx → EReal :=
  fun i => dotAt x W (i 0) (i 1) + b (ix2 (0 : Fin 1) (i 1))

/-- One relational layer: the node's own features through the root weight, plus each relation's mean aggregate
    through that relation's weight, plus the bias, rectified. -/
def layer (h a0 a1 : (⟨2, ![100000, 128]⟩ : Shape).Idx → EReal) (R W0 W1 : (⟨2, ![128, 128]⟩ : Shape).Idx → EReal)
    (b : (⟨2, ![1, 128]⟩ : Shape).Idx → EReal) : (⟨2, ![100000, 128]⟩ : Shape).Idx → EReal :=
  fun i => max (dotAt h R (i 0) (i 1) + dotAt a0 W0 (i 0) (i 1) + dotAt a1 W1 (i 0) (i 1) + b (ix2 (0 : Fin 1) (i 1))) zeroWord

/-- The hidden activations of the pooling head. -/
def hidden (h : (⟨2, ![100000, 128]⟩ : Shape).Idx → EReal) (Wp : (⟨2, ![128, 128]⟩ : Shape).Idx → EReal)
    (bp : (⟨2, ![1, 128]⟩ : Shape).Idx → EReal) : (⟨2, ![100000, 128]⟩ : Shape).Idx → EReal :=
  fun i => max (dotAt h Wp (i 0) (i 1) + bp (ix2 (0 : Fin 1) (i 1))) zeroWord

/-- The pooling head: a rectified projection, then the output projection. -/
def pool (h : (⟨2, ![100000, 128]⟩ : Shape).Idx → EReal) (Wp : (⟨2, ![128, 128]⟩ : Shape).Idx → EReal)
    (bp : (⟨2, ![1, 128]⟩ : Shape).Idx → EReal) (Wo : (⟨2, ![128, 2]⟩ : Shape).Idx → EReal)
    (bo : (⟨2, ![1, 2]⟩ : Shape).Idx → EReal) : (⟨2, ![100000, 2]⟩ : Shape).Idx → EReal :=
  fun i => dotAt (hidden h Wp bp) Wo (i 0) (i 1) + bo (ix2 (0 : Fin 1) (i 1))

/-- The bias may be added first or last. -/
theorem layer_sum_comm (s b s0 s1 : EReal) : s + b + s0 + s1 = s + s0 + s1 + b := by
  rw [add_right_comm s b s0, add_right_comm (s + s0) b s1]

end Cert.Rgcn

end
-- ==== Proof.Pay.lean ====
/-
  The four kernel bodies' stored values, read at an entry of the block.

  Each body loads its row block and the whole weights, and stores one value. At F := Ideal a change of float format is the
  identity and a matrix product into a zero accumulator is the plain sum over the shared axis, so at the block's entry
  (p, q):
    * the input projection stores  Σₖ x(p,k)·W(k,q) + b(0,q);
    * a relational layer stores    max (Σₖ h(p,k)·R(k,q) + Σₖ a0(p,k)·W0(k,q) + Σₖ a1(p,k)·W1(k,q) + b(0,q)) 0;
    * the pooling head stores      Σₖ max (Σⱼ h(p,j)·Wp(j,k) + bp(0,k)) 0 · Wo(k,q) + bo(0,q).
-/
import proofs.«171730_j7868380086413_1_alg».proof.Proof.Gen.KernelIdeal.Skeleton
import proofs.«171730_j7868380086413_1_alg».proof.Proof.LibPlainDot
import proofs.«171730_j7868380086413_1_alg».proof.Proof.Spec
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Cert.Rgcn Idealize.ShloMosaic Idealize.ShloMosaic.ValueIdx

/-- The input projection's stored value at (p, q). -/
theorem pay0_apply (x0 : Vec Ideal S2000x768 .f32) (x1 : Vec Ideal S768x128 .f32) (x2 : Vec Ideal S1x128 .f32)
    (p : Fin 2000) (q : Fin 128) :
    k0_pay1 (F := Ideal) x0 x1 x2 (ix2 p q) = dotAt x0 x1 p q + x2 (ix2 (0 : Fin 1) q) := by
  unfold k0_pay1
  simp only [shapeCast_self]
  refine (addf_apply _ _ _).trans ?_
  exact congrArg₂ (· + ·) (Cert.Lib.matmul_zero_apply _ none _ _ p q) (broadcastTo_1b_ab_apply _ _ p q)

/-- A relational layer's stored value at (p, q): the three products summed in the body's order, the bias, the rectifier. -/
theorem pay1_apply (x0 x3 x6 : Vec Ideal S5000x128 .f32) (x9 x12 x15 : Vec Ideal S128x128 .f32) (x23 : Vec Ideal S1x128 .f32)
    (p : Fin 5000) (q : Fin 128) :
    k1_pay1 (F := Ideal) x0 x3 x6 x9 x12 x15 x23 (ix2 p q)
      = max (dotAt x0 x9 p q + dotAt x3 x12 p q + dotAt x6 x15 p q + x23 (ix2 (0 : Fin 1) q)) zeroWord := by
  unfold k1_pay1
  simp only [shapeCast_self]
  refine (maximumf_apply _ _ _).trans ?_
  refine congrArg₂ max ?_ rfl
  refine (addf_apply _ _ _).trans ?_
  refine congrArg₂ (· + ·) ?_ (broadcastTo_1b_ab_apply _ _ p q)
  refine (addf_apply _ _ _).trans ?_
  refine congrArg₂ (· + ·) ?_ (Cert.Lib.matmul_zero_apply _ none _ _ p q)
  refine (addf_apply _ _ _).trans ?_
  exact congrArg₂ (· + ·) (Cert.Lib.matmul_zero_apply _ none _ _ p q) (Cert.Lib.matmul_zero_apply _ none _ _ p q)

/-- A relational layer's stored value at (p, q): the three products summed in the body's order, the bias, the rectifier. -/
theorem pay2_apply (x0 x3 x6 : Vec Ideal S5000x128 .f32) (x9 x12 x15 : Vec Ideal S128x128 .f32) (x23 : Vec Ideal S1x128 .f32)
    (p : Fin 5000) (q : Fin 128) :
    k2_pay1 (F := Ideal) x0 x3 x6 x9 x12 x15 x23 (ix2 p q)
      = max (dotAt x0 x9 p q + dotAt x3 x12 p q + dotAt x6 x15 p q + x23 (ix2 (0 : Fin 1) q)) zeroWord := by
  unfold k2_pay1
  simp only [shapeCast_self]
  refine (maximumf_apply _ _ _).trans ?_
  refine congrArg₂ max ?_ rfl
  refine (addf_apply _ _ _).trans ?_
  refine congrArg₂ (· + ·) ?_ (broadcastTo_1b_ab_apply _ _ p q)
  refine (addf_apply _ _ _).trans ?_
  refine congrArg₂ (· + ·) ?_ (Cert.Lib.matmul_zero_apply _ none _ _ p q)
  refine (addf_apply _ _ _).trans ?_
  exact congrArg₂ (· + ·) (Cert.Lib.matmul_zero_apply _ none _ _ p q) (Cert.Lib.matmul_zero_apply _ none _ _ p q)

/-- The pooling head's stored value at (p, q): the rectified hidden row through the output weight, plus the output bias. -/
theorem pay3_apply (x0 : Vec Ideal S5000x128 .f32) (x3 : Vec Ideal S128x128 .f32) (x6 : Vec Ideal S1x128 .f32)
    (x13 : Vec Ideal S128x2 .f32) (x16 : Vec Ideal S1x2 .f32) (p : Fin 5000) (q : Fin 2) :
    k3_pay1 (F := Ideal) x0 x3 x6 x13 x16 (ix2 p q)
      = (∑ k : Fin 128, max (dotAt x0 x3 p k + x6 (ix2 (0 : Fin 1) k)) zeroWord * x13 (ix2 k q)) + x16 (ix2 (0 : Fin 1) q) := by
  unfold k3_pay1
  simp only [shapeCast_self]
  refine (addf_apply _ _ _).trans ?_
  refine congrArg₂ (· + ·) ?_ (broadcastTo_1b_ab_apply _ _ p q)
  refine (Cert.Lib.matmul_zero_apply _ none _ _ p q).trans ?_
  refine Finset.sum_congr rfl fun k _ => ?_
  refine congrArg₂ (· * ·) ?_ rfl
  refine (truncf_apply (ψ := .bf16) _ bitsLt_bf16_f32 _).trans ?_
  refine (maximumf_apply _ _ _).trans ?_
  refine congrArg₂ max ?_ rfl
  refine (addf_apply _ _ _).trans ?_
  exact congrArg₂ (· + ·) (Cert.Lib.matmul_zero_apply _ none _ _ p k) (broadcastTo_1b_ab_apply _ _ p k)

end Cert.KernelIdeal.Hand

end
-- ==== Proof.Reg0.lean ====
/-
  The input projection's region: its output array after the run.

  The grid has 50 points. Point t fetches rows 2000·t … 2000·t + 1999 of x and the whole of W and of the one-row bias, and
  writes back rows 2000·t … 2000·t + 1999 of the output. So the block's entry (p, q) is the array's entry (2000·t + p, q) on
  the row-blocked windows and (p, q) itself on the others; what point t writes back is block t of `project x W b`; the
  50 blocks cover the 100000 rows; and the output array ends at `project x W b` of the arrays the region found.
-/
import proofs.«171730_j7868380086413_1_alg».proof.Proof.Gen.KernelIdeal.Frame
import proofs.«171730_j7868380086413_1_alg».proof.Proof.Pay
import Idealize.ShloMosaic.Lib.Pipeline.Value
import Idealize.ShloMosaic.Lib.Tactic

set_option maxRecDepth 16384

noncomputable section

namespace Cert.KernelIdeal.Hand

open Cert.KernelIdeal Cert.KernelIdeal.Gen Cert.Rgcn Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: x's block and the output's move with the point along the rows; the
    weight's and the bias's stay. -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT t WRITES BACK is block t of the projection of the arrays as the region finds them. -/
theorem flushed0 (c : Dev nD) (t : Fin cfg0.N) :
    (dat0 V c).flushed 3 t = ((cfg0.win 3).blk t).view.read (Elt Ideal)
      (project (V c main_arg0) (V c main_arg3) (V c main_v4)) := by
  show (cfg0.win 3).cut (grid0.coords t) ((dat0 V c).after 3 t) = _
  rw [after0_3]
  unfold out0_3
  rw [View.canon_unit_zero zero_offsets]
  simp only [View.ld_unit_zero (S := S2000x768) zero_offsets, View.ld_unit_zero (S := S768x128) zero_offsets,
    View.ld_unit_zero (S := S1x128) zero_offsets]
  obtain ⟨e0, e1, e2, e3, e4, e5, e6, e7⟩ := index_maps0 t
  have ht : t.val < 50 := by have hN : grid0.N = 50 := N_0; have h : t.val < grid0.N := t.isLt; omega
  funext j
  obtain ⟨p, q, rfl⟩ : ∃ (p : Fin 2000) (q : Fin 128), j = ix2 p q := ⟨j 0, j 1, eq_ix2 j⟩
  have hp : p.val < 2000 := p.isLt
  -- the row of the array that row p of block t is
  obtain ⟨r, hr⟩ : ∃ r : Fin 100000, r.val = 2000 * t.val + p.val := ⟨⟨2000 * t.val + p.val, by omega⟩, rfl⟩
  have hout : ((View.whole main_v7).slice ((win0 3).rect t)).emb (ix2 p q) = ix2 r q := by
    funext a; apply Fin.ext
    match a with
    | ⟨0, _⟩ => show win0_3.index t (0 : Fin 2) * 2000 + 1 * p.val = r.val; rw [e6, hr]; omega
    | ⟨1, _⟩ => show win0_3.index t (1 : Fin 2) * 128 + 1 * q.val = q.val; rw [e7]; omega
  have hx : ∀ k : Fin 768, iblk0 V c 0 t (ix2 p k) = V c main_arg0 (ix2 r k) := fun k => by
    show V c main_arg0 (((cfg0.win 0).blk t).view.emb (ix2 p k)) = _
    congr 1; funext a; apply Fin.ext
    match a with
    | ⟨0, _⟩ => show win0_0.index t (0 : Fin 2) * 2000 + 1 * p.val = r.val; rw [e0, hr]; omega
    | ⟨1, _⟩ => show win0_0.index t (1 : Fin 2) * 768 + 1 * k.val = k.val; rw [e1]; omega
  have hw : ∀ k : Fin 768, iblk0 V c 1 t (ix2 k q) = V c main_arg3 (ix2 k q) := fun k => by
    show V c main_arg3 (((cfg0.win 1).blk t).view.emb (ix2 k q)) = _
    congr 1; funext a; apply Fin.ext
    match a with
    | ⟨0, _⟩ => show win0_1.index t (0 : Fin 2) * 768 + 1 * k.val = k.val; rw [e2]; omega
    | ⟨1, _⟩ => show win0_1.index t (1 : Fin 2) * 128 + 1 * q.val = q.val; rw [e3]; omega
  have hb : iblk0 V c 2 t (ix2 (0 : Fin 1) q) = V c main_v4 (ix2 (0 : Fin 1) q) := by
    show V c main_v4 (((cfg0.win 2).blk t).view.emb (ix2 (0 : Fin 1) q)) = _
    congr 1; funext a; apply Fin.ext
    match a with
    | ⟨0, _⟩ => show win0_2.index t (0 : Fin 2) * 1 + 1 * 0 = 0; rw [e4]
    | ⟨1, _⟩ => show win0_2.index t (1 : Fin 2) * 128 + 1 * q.val = q.val; rw [e5]; omega
  show k0_pay1 (iblk0 V c 0 t) (iblk0 V c 1 t) (iblk0 V c 2 t) (ix2 p q)
    = project (V c main_arg0) (V c main_arg3) (V c main_v4) (((View.whole main_v7).slice ((win0 3).rect t)).emb (ix2 p q))
  rw [hout]
  refine (pay0_apply (iblk0 V c 0 t) (iblk0 V c 1 t) (iblk0 V c 2 t) p q).trans ?_
  show dotAt (iblk0 V c 0 t) (iblk0 V c 1 t) p q + iblk0 V c 2 t (ix2 (0 : Fin 1) q)
    = dotAt (V c main_arg0) (V c main_arg3) r q + V c main_v4 (ix2 (0 : Fin 1) q)
  rw [hb]
  refine congrArg (· + _) ?_
  exact Finset.sum_congr rfl fun k _ => by rw [hx k, hw k]

/-- An index of the output array is in point t's block iff each coordinate is in the block's range on its axis. -/
theorem mem_block0 (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v7).slice (win0_3.rect t)).set ↔ _
  rw [View.set_slice_whole, Rect.mem_set_unit]
  exact Iff.rfl

/-- THE OUTPUT ARRAY after the region: the projection of the arrays the region found (row i lies in block i / 2000). -/
theorem final0 (c : Dev nD) :
    (dat0 V c).arrAt 3 cfg0.N = project (V c main_arg0) (V c main_arg3) (V c main_v4) :=
  (dat0 V c).arrAt_eq_of_cover 3 _ (fun t _ => flushed0 V c t) fun i => by
    have hi0 : (i 0).val < 100000 := (i 0).isLt
    have hi1 : (i 1).val < 128 := (i 1).isLt
    have hN : cfg0.N = 50 := N_0
    refine ⟨⟨(i 0).val / 2000, by rw [hN]; omega⟩, flush0_3 _, ?_⟩
    rw [mem_block0]
    obtain ⟨-, -, -, -, -, -, e6, e7⟩ := index_maps0 ⟨(i 0).val / 2000, by rw [hN]; omega⟩
    intro a
    match a with
    | ⟨0, _⟩ => show win0_3.index _ (0 : Fin 2) * 2000 ≤ (i 0).val ∧ (i 0).val < win0_3.index _ (0 : Fin 2) * 2000 + 2000; rw [e6]; show (i 0).val / 2000 * 2000 ≤ (i 0).val ∧ (i 0).val < (i 0).val / 2000 * 2000 + 2000; omega
    | ⟨1, _⟩ => show win0_3.index _ (1 : Fin 2) * 128 ≤ (i 1).val ∧ (i 1).val < win0_3.index _ (1 : Fin 2) * 128 + 128; rw [e7]; omega

end Cert.KernelIdeal.Hand

end
-- ==== Proof.Reg1.lean ====
/-
  A relational layer's region: its output array after the run.

  The grid has 20 points. Point t fetches rows 5000·t … 5000·t + 4999 of the node features and of the two mean aggregates,
  and the whole of the three weights and of the one-row bias, and writes back the same rows of the output. What point t
  writes back is block t of `layer h a0 a1 R W0 W1 b`; the 20 blocks cover the 100000 rows; the output array ends at
  `layer h a0 a1 R W0 W1 b` of the arrays the region found.
-/
import proofs.«171730_j7868380086413_1_alg».proof.Proof.Gen.KernelIdeal.Frame
import proofs.«171730_j7868380086413_1_alg».proof.Proof.Pay
import Idealize.ShloMosaic.Lib.Pipeline.Value
import Idealize.ShloMosaic.Lib.Tactic
import proofs.«171730_j7868380086413_1_alg».proof.Proof.Reg0
set_option maxRecDepth 16384

noncomputable section

namespace Cert.KernelIdeal.Hand

open Cert.KernelIdeal Cert.KernelIdeal.Gen Cert.Rgcn Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps, decided over the grid: the three node-indexed inputs and the output move with the point along
    the rows; the weights and the bias stay. -/
theorem index_maps1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = t.val
    ∧ win1_7.index t (1 : Fin 2) = 0 :=
  (by decide +kernel : ∀ t : Fin grid1.N, _)

/-- WHAT POINT t WRITES BACK is block t of the layer of the arrays as the region finds them. -/
theorem flushed1 (c : Dev nD) (t : Fin cfg1.N) :
    (dat1 V c).flushed 7 t = ((cfg1.win 7).blk t).view.read (Elt Ideal)
      (layer (V c main_v7) (V c main_v31) (V c main_v48) (V c main_v53) (V c main_v55) (V c main_v57) (V c main_v51)) := by
  show (cfg1.win 7).cut (grid1.coords t) ((dat1 V c).after 7 t) = _
  rw [after1_7]
  unfold out1_7
  rw [View.canon_unit_zero zero_offsets]
  simp only [View.ld_unit_zero (S := S5000x128) zero_offsets, View.ld_unit_zero (S := S128x128) zero_offsets,
    View.ld_unit_zero (S := S1x128) zero_offsets]
  obtain ⟨e0_0, e0_1, e1_0, e1_1, e2_0, e2_1, e3_0, e3_1, e4_0, e4_1, e5_0, e5_1, e6_0, e6_1, e7_0, e7_1⟩ := index_maps1 t
  have ht : t.val < 20 := by have hN : grid1.N = 20 := N_1; have h : t.val < grid1.N := t.isLt; omega
  funext j
  obtain ⟨p, q, rfl⟩ : ∃ (p : Fin 5000) (q : Fin 128), j = ix2 p q := ⟨j 0, j 1, eq_ix2 j⟩
  have hp : p.val < 5000 := p.isLt
  obtain ⟨r, hr⟩ : ∃ r : Fin 100000, r.val = 5000 * t.val + p.val := ⟨⟨5000 * t.val + p.val, by omega⟩, rfl⟩
  have hout : ((View.whole main_v58).slice ((win1 7).rect t)).emb (ix2 p q) = ix2 r q := by
    funext a; apply Fin.ext
    match a with
    | ⟨0, _⟩ => show win1_7.index t (0 : Fin 2) * 5000 + 1 * p.val = r.val; rw [e7_0, hr]; omega
    | ⟨1, _⟩ => show win1_7.index t (1 : Fin 2) * 128 + 1 * q.val = q.val; rw [e7_1]; omega
  have hrow0 : ∀ k : Fin 128, iblk1 V c 0 t (ix2 p k) = V c main_v7 (ix2 r k) := fun k => by
    show V c main_v7 (((cfg1.win 0).blk t).view.emb (ix2 p k)) = _
    congr 1; funext a; apply Fin.ext
    match a with
    | ⟨0, _⟩ => show win1_0.index t (0 : Fin 2) * 5000 + 1 * p.val = r.val; rw [e0_0, hr]; omega
    | ⟨1, _⟩ => show win1_0.index t (1 : Fin 2) * 128 + 1 * k.val = k.val; rw [e0_1]; omega
  have hrow1 : ∀ k : Fin 128, iblk1 V c 1 t (ix2 p k) = V c main_v31 (ix2 r k) := fun k => by
    show V c main_v31 (((cfg1.win 1).blk t).view.emb (ix2 p k)) = _
    congr 1; funext a; apply Fin.ext
    match a with
    | ⟨0, _⟩ => show win1_1.index t (0 : Fin 2) * 5000 + 1 * p.val = r.val; rw [e1_0, hr]; omega
    | ⟨1, _⟩ => show win1_1.index t (1 : Fin 2) * 128 + 1 * k.val = k.val; rw [e1_1]; omega
  have hrow2 : ∀ k : Fin 128, iblk1 V c 2 t (ix2 p k) = V c main_v48 (ix2 r k) := fun k => by
    show V c main_v48 (((cfg1.win 2).blk t).view.emb (ix2 p k)) = _
    congr 1; funext a; apply Fin.ext
    match a with
    | ⟨0, _⟩ => show win1_2.index t (0 : Fin 2) * 5000 + 1 * p.val = r.val; rw [e2_0, hr]; omega
    | ⟨1, _⟩ => show win1_2.index t (1 : Fin 2) * 128 + 1 * k.val = k.val; rw [e2_1]; omega
  have hwt3 : ∀ k : Fin 128, iblk1 V c 3 t (ix2 k q) = V c main_v53 (ix2 k q) := fun k => by
    show V c main_v53 (((cfg1.win 3).blk t).view.emb (ix2 k q)) = _
    congr 1; funext a; apply Fin.ext
    match a with
    | ⟨0, _⟩ => show win1_3.index t (0 : Fin 2) * 128 + 1 * k.val = k.val; rw [e3_0]; omega
    | ⟨1, _⟩ => show win1_3.index t (1 : Fin 2) * 128 + 1 * q.val = q.val; rw [e3_1]; omega
  have hwt4 : ∀ k : Fin 128, iblk1 V c 4 t (ix2 k q) = V c main_v55 (ix2 k q) := fun k => by
    show V c main_v55 (((cfg1.win 4).blk t).view.emb (ix2 k q)) = _
    congr 1; funext a; apply Fin.ext
    match a with
    | ⟨0, _⟩ => show win1_4.index t (0 : Fin 2) * 128 + 1 * k.val = k.val; rw [e4_0]; omega
    | ⟨1, _⟩ => show win1_4.index t (1 : Fin 2) * 128 + 1 * q.val = q.val; rw [e4_1]; omega
  have hwt5 : ∀ k : Fin 128, iblk1 V c 5 t (ix2 k q) = V c main_v57 (ix2 k q) := fun k => by
    show V c main_v57 (((cfg1.win 5).blk t).view.emb (ix2 k q)) = _
    congr 1; funext a; apply Fin.ext
    match a with
    | ⟨0, _⟩ => show win1_5.index t (0 : Fin 2) * 128 + 1 * k.val = k.val; rw [e5_0]; omega
    | ⟨1, _⟩ => show win1_5.index t (1 : Fin 2) * 128 + 1 * q.val = q.val; rw [e5_1]; omega
  have hb : iblk1 V c 6 t (ix2 (0 : Fin 1) q) = V c main_v51 (ix2 (0 : Fin 1) q) := by
    show V c main_v51 (((cfg1.win 6).blk t).view.emb (ix2 (0 : Fin 1) q)) = _
    congr 1; funext a; apply Fin.ext
    match a with
    | ⟨0, _⟩ => show win1_6.index t (0 : Fin 2) * 1 + 1 * 0 = 0; rw [e6_0]
    | ⟨1, _⟩ => show win1_6.index t (1 : Fin 2) * 128 + 1 * q.val = q.val; rw [e6_1]; omega
  show k1_pay1 (iblk1 V c 0 t) (iblk1 V c 1 t) (iblk1 V c 2 t) (iblk1 V c 3 t) (iblk1 V c 4 t) (iblk1 V c 5 t) (iblk1 V c 6 t) (ix2 p q)
    = layer (V c main_v7) (V c main_v31) (V c main_v48) (V c main_v53) (V c main_v55) (V c main_v57) (V c main_v51) (((View.whole main_v58).slice ((win1 7).rect t)).emb (ix2 p q))
  rw [hout]
  refine (pay1_apply (iblk1 V c 0 t) (iblk1 V c 1 t) (iblk1 V c 2 t) (iblk1 V c 3 t) (iblk1 V c 4 t) (iblk1 V c 5 t) (iblk1 V c 6 t) p q).trans ?_
  show max (dotAt (iblk1 V c 0 t) (iblk1 V c 3 t) p q + dotAt (iblk1 V c 1 t) (iblk1 V c 4 t) p q + dotAt (iblk1 V c 2 t) (iblk1 V c 5 t) p q + iblk1 V c 6 t (ix2 (0 : Fin 1) q)) zeroWord
    = max (dotAt (V c main_v7) (V c main_v53) r q + dotAt (V c main_v31) (V c main_v55) r q + dotAt (V c main_v48) (V c main_v57) r q + V c main_v51 (ix2 (0 : Fin 1) q)) zeroWord
  rw [hb]
  have s0 : dotAt (iblk1 V c 0 t) (iblk1 V c 3 t) p q = dotAt (V c main_v7) (V c main_v53) r q :=
    Finset.sum_congr rfl fun k _ => by rw [hrow0 k, hwt3 k]
  have s1 : dotAt (iblk1 V c 1 t) (iblk1 V c 4 t) p q = dotAt (V c main_v31) (V c main_v55) r q :=
    Finset.sum_congr rfl fun k _ => by rw [hrow1 k, hwt4 k]
  have s2 : dotAt (iblk1 V c 2 t) (iblk1 V c 5 t) p q = dotAt (V c main_v48) (V c main_v57) r q :=
    Finset.sum_congr rfl fun k _ => by rw [hrow2 k, hwt5 k]
  rw [s0, s1, s2]

/-- An index of the output array is in point t's block iff each coordinate is in the block's range on its axis. -/
theorem mem_block1 (t : Fin cfg1.N) (i : S100000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v58).slice (win1_7.rect t)).set ↔ _
  rw [View.set_slice_whole, Rect.mem_set_unit]
  exact Iff.rfl

/-- THE OUTPUT ARRAY after the region: the layer of the arrays the region found (row i lies in block i / 5000). -/
theorem final1 (c : Dev nD) :
    (dat1 V c).arrAt 7 cfg1.N = layer (V c main_v7) (V c main_v31) (V c main_v48) (V c main_v53) (V c main_v55) (V c main_v57) (V c main_v51) :=
  (dat1 V c).arrAt_eq_of_cover 7 _ (fun t _ => flushed1 V c t) fun i => by
    have hi0 : (i 0).val < 100000 := (i 0).isLt
    have hi1 : (i 1).val < 128 := (i 1).isLt
    have hN : cfg1.N = 20 := N_1
    refine ⟨⟨(i 0).val / 5000, by rw [hN]; omega⟩, flush1_7 _, ?_⟩
    rw [mem_block1]
    obtain ⟨-, -, -, -, -, -, -, -, -, -, -, -, -, -, e6, e7⟩ := index_maps1 ⟨(i 0).val / 5000, by rw [hN]; omega⟩
    intro a
    match a with
    | ⟨0, _⟩ => show win1_7.index _ (0 : Fin 2) * 5000 ≤ (i 0).val ∧ (i 0).val < win1_7.index _ (0 : Fin 2) * 5000 + 5000; rw [e6]; show (i 0).val / 5000 * 5000 ≤ (i 0).val ∧ (i 0).val < (i 0).val / 5000 * 5000 + 5000; omega
    | ⟨1, _⟩ => show win1_7.index _ (1 : Fin 2) * 128 ≤ (i 1).val ∧ (i 1).val < win1_7.index _ (1 : Fin 2) * 128 + 128; rw [e7]; omega

end Cert.KernelIdeal.Hand

end
-- ==== Proof.Reg2.lean ====
/-
  A relational layer's region: its output array after the run.

  The grid has 20 points. Point t fetches rows 5000·t … 5000·t + 4999 of the node features and of the two mean aggregates,
  and the whole of the three weights and of the one-row bias, and writes back the same rows of the output. What point t
  writes back is block t of `layer h a0 a1 R W0 W1 b`; the 20 blocks cover the 100000 rows; the output array ends at
  `layer h a0 a1 R W0 W1 b` of the arrays the region found.
-/
import proofs.«171730_j7868380086413_1_alg».proof.Proof.Gen.KernelIdeal.Frame
import proofs.«171730_j7868380086413_1_alg».proof.Proof.Pay
import Idealize.ShloMosaic.Lib.Pipeline.Value
import Idealize.ShloMosaic.Lib.Tactic
import proofs.«171730_j7868380086413_1_alg».proof.Proof.Reg0
set_option maxRecDepth 16384

noncomputable section

namespace Cert.KernelIdeal.Hand

open Cert.KernelIdeal Cert.KernelIdeal.Gen Cert.Rgcn Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps, decided over the grid: the three node-indexed inputs and the output move with the point along
    the rows; the weights and the bias stay. -/
theorem index_maps2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = t.val
    ∧ win2_7.index t (1 : Fin 2) = 0 :=
  (by decide +kernel : ∀ t : Fin grid2.N, _)

/-- WHAT POINT t WRITES BACK is block t of the layer of the arrays as the region finds them. -/
theorem flushed2 (c : Dev nD) (t : Fin cfg2.N) :
    (dat2 V c).flushed 7 t = ((cfg2.win 7).blk t).view.read (Elt Ideal)
      (layer (V c main_v58) (V c main_v82) (V c main_v99) (V c main_v104) (V c main_v106) (V c main_v108) (V c main_v102)) := by
  show (cfg2.win 7).cut (grid2.coords t) ((dat2 V c).after 7 t) = _
  rw [after2_7]
  unfold out2_7
  rw [View.canon_unit_zero zero_offsets]
  simp only [View.ld_unit_zero (S := S5000x128) zero_offsets, View.ld_unit_zero (S := S128x128) zero_offsets,
    View.ld_unit_zero (S := S1x128) zero_offsets]
  obtain ⟨e0_0, e0_1, e1_0, e1_1, e2_0, e2_1, e3_0, e3_1, e4_0, e4_1, e5_0, e5_1, e6_0, e6_1, e7_0, e7_1⟩ := index_maps2 t
  have ht : t.val < 20 := by have hN : grid2.N = 20 := N_2; have h : t.val < grid2.N := t.isLt; omega
  funext j
  obtain ⟨p, q, rfl⟩ : ∃ (p : Fin 5000) (q : Fin 128), j = ix2 p q := ⟨j 0, j 1, eq_ix2 j⟩
  have hp : p.val < 5000 := p.isLt
  obtain ⟨r, hr⟩ : ∃ r : Fin 100000, r.val = 5000 * t.val + p.val := ⟨⟨5000 * t.val + p.val, by omega⟩, rfl⟩
  have hout : ((View.whole main_v109).slice ((win2 7).rect t)).emb (ix2 p q) = ix2 r q := by
    funext a; apply Fin.ext
    match a with
    | ⟨0, _⟩ => show win2_7.index t (0 : Fin 2) * 5000 + 1 * p.val = r.val; rw [e7_0, hr]; omega
    | ⟨1, _⟩ => show win2_7.index t (1 : Fin 2) * 128 + 1 * q.val = q.val; rw [e7_1]; omega
  have hrow0 : ∀ k : Fin 128, iblk2 V c 0 t (ix2 p k) = V c main_v58 (ix2 r k) := fun k => by
    show V c main_v58 (((cfg2.win 0).blk t).view.emb (ix2 p k)) = _
    congr 1; funext a; apply Fin.ext
    match a with
    | ⟨0, _⟩ => show win2_0.index t (0 : Fin 2) * 5000 + 1 * p.val = r.val; rw [e0_0, hr]; omega
    | ⟨1, _⟩ => show win2_0.index t (1 : Fin 2) * 128 + 1 * k.val = k.val; rw [e0_1]; omega
  have hrow1 : ∀ k : Fin 128, iblk2 V c 1 t (ix2 p k) = V c main_v82 (ix2 r k) := fun k => by
    show V c main_v82 (((cfg2.win 1).blk t).view.emb (ix2 p k)) = _
    congr 1; funext a; apply Fin.ext
    match a with
    | ⟨0, _⟩ => show win2_1.index t (0 : Fin 2) * 5000 + 1 * p.val = r.val; rw [e1_0, hr]; omega
    | ⟨1, _⟩ => show win2_1.index t (1 : Fin 2) * 128 + 1 * k.val = k.val; rw [e1_1]; omega
  have hrow2 : ∀ k : Fin 128, iblk2 V c 2 t (ix2 p k) = V c main_v99 (ix2 r k) := fun k => by
    show V c main_v99 (((cfg2.win 2).blk t).view.emb (ix2 p k)) = _
    congr 1; funext a; apply Fin.ext
    match a with
    | ⟨0, _⟩ => show win2_2.index t (0 : Fin 2) * 5000 + 1 * p.val = r.val; rw [e2_0, hr]; omega
    | ⟨1, _⟩ => show win2_2.index t (1 : Fin 2) * 128 + 1 * k.val = k.val; rw [e2_1]; omega
  have hwt3 : ∀ k : Fin 128, iblk2 V c 3 t (ix2 k q) = V c main_v104 (ix2 k q) := fun k => by
    show V c main_v104 (((cfg2.win 3).blk t).view.emb (ix2 k q)) = _
    congr 1; funext a; apply Fin.ext
    match a with
    | ⟨0, _⟩ => show win2_3.index t (0 : Fin 2) * 128 + 1 * k.val = k.val; rw [e3_0]; omega
    | ⟨1, _⟩ => show win2_3.index t (1 : Fin 2) * 128 + 1 * q.val = q.val; rw [e3_1]; omega
  have hwt4 : ∀ k : Fin 128, iblk2 V c 4 t (ix2 k q) = V c main_v106 (ix2 k q) := fun k => by
    show V c main_v106 (((cfg2.win 4).blk t).view.emb (ix2 k q)) = _
    congr 1; funext a; apply Fin.ext
    match a with
    | ⟨0, _⟩ => show win2_4.index t (0 : Fin 2) * 128 + 1 * k.val = k.val; rw [e4_0]; omega
    | ⟨1, _⟩ => show win2_4.index t (1 : Fin 2) * 128 + 1 * q.val = q.val; rw [e4_1]; omega
  have hwt5 : ∀ k : Fin 128, iblk2 V c 5 t (ix2 k q) = V c main_v108 (ix2 k q) := fun k => by
    show V c main_v108 (((cfg2.win 5).blk t).view.emb (ix2 k q)) = _
    congr 1; funext a; apply Fin.ext
    match a with
    | ⟨0, _⟩ => show win2_5.index t (0 : Fin 2) * 128 + 1 * k.val = k.val; rw [e5_0]; omega
    | ⟨1, _⟩ => show win2_5.index t (1 : Fin 2) * 128 + 1 * q.val = q.val; rw [e5_1]; omega
  have hb : iblk2 V c 6 t (ix2 (0 : Fin 1) q) = V c main_v102 (ix2 (0 : Fin 1) q) := by
    show V c main_v102 (((cfg2.win 6).blk t).view.emb (ix2 (0 : Fin 1) q)) = _
    congr 1; funext a; apply Fin.ext
    match a with
    | ⟨0, _⟩ => show win2_6.index t (0 : Fin 2) * 1 + 1 * 0 = 0; rw [e6_0]
    | ⟨1, _⟩ => show win2_6.index t (1 : Fin 2) * 128 + 1 * q.val = q.val; rw [e6_1]; omega
  show k2_pay1 (iblk2 V c 0 t) (iblk2 V c 1 t) (iblk2 V c 2 t) (iblk2 V c 3 t) (iblk2 V c 4 t) (iblk2 V c 5 t) (iblk2 V c 6 t) (ix2 p q)
    = layer (V c main_v58) (V c main_v82) (V c main_v99) (V c main_v104) (V c main_v106) (V c main_v108) (V c main_v102) (((View.whole main_v109).slice ((win2 7).rect t)).emb (ix2 p q))
  rw [hout]
  refine (pay2_apply (iblk2 V c 0 t) (iblk2 V c 1 t) (iblk2 V c 2 t) (iblk2 V c 3 t) (iblk2 V c 4 t) (iblk2 V c 5 t) (iblk2 V c 6 t) p q).trans ?_
  show max (dotAt (iblk2 V c 0 t) (iblk2 V c 3 t) p q + dotAt (iblk2 V c 1 t) (iblk2 V c 4 t) p q + dotAt (iblk2 V c 2 t) (iblk2 V c 5 t) p q + iblk2 V c 6 t (ix2 (0 : Fin 1) q)) zeroWord
    = max (dotAt (V c main_v58) (V c main_v104) r q + dotAt (V c main_v82) (V c main_v106) r q + dotAt (V c main_v99) (V c main_v108) r q + V c main_v102 (ix2 (0 : Fin 1) q)) zeroWord
  rw [hb]
  have s0 : dotAt (iblk2 V c 0 t) (iblk2 V c 3 t) p q = dotAt (V c main_v58) (V c main_v104) r q :=
    Finset.sum_congr rfl fun k _ => by rw [hrow0 k, hwt3 k]
  have s1 : dotAt (iblk2 V c 1 t) (iblk2 V c 4 t) p q = dotAt (V c main_v82) (V c main_v106) r q :=
    Finset.sum_congr rfl fun k _ => by rw [hrow1 k, hwt4 k]
  have s2 : dotAt (iblk2 V c 2 t) (iblk2 V c 5 t) p q = dotAt (V c main_v99) (V c main_v108) r q :=
    Finset.sum_congr rfl fun k _ => by rw [hrow2 k, hwt5 k]
  rw [s0, s1, s2]

/-- An index of the output array is in point t's block iff each coordinate is in the block's range on its axis. -/
theorem mem_block2 (t : Fin cfg2.N) (i : S100000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v109).slice (win2_7.rect t)).set ↔ _
  rw [View.set_slice_whole, Rect.mem_set_unit]
  exact Iff.rfl

/-- THE OUTPUT ARRAY after the region: the layer of the arrays the region found (row i lies in block i / 5000). -/
theorem final2 (c : Dev nD) :
    (dat2 V c).arrAt 7 cfg2.N = layer (V c main_v58) (V c main_v82) (V c main_v99) (V c main_v104) (V c main_v106) (V c main_v108) (V c main_v102) :=
  (dat2 V c).arrAt_eq_of_cover 7 _ (fun t _ => flushed2 V c t) fun i => by
    have hi0 : (i 0).val < 100000 := (i 0).isLt
    have hi1 : (i 1).val < 128 := (i 1).isLt
    have hN : cfg2.N = 20 := N_2
    refine ⟨⟨(i 0).val / 5000, by rw [hN]; omega⟩, flush2_7 _, ?_⟩
    rw [mem_block2]
    obtain ⟨-, -, -, -, -, -, -, -, -, -, -, -, -, -, e6, e7⟩ := index_maps2 ⟨(i 0).val / 5000, by rw [hN]; omega⟩
    intro a
    match a with
    | ⟨0, _⟩ => show win2_7.index _ (0 : Fin 2) * 5000 ≤ (i 0).val ∧ (i 0).val < win2_7.index _ (0 : Fin 2) * 5000 + 5000; rw [e6]; show (i 0).val / 5000 * 5000 ≤ (i 0).val ∧ (i 0).val < (i 0).val / 5000 * 5000 + 5000; omega
    | ⟨1, _⟩ => show win2_7.index _ (1 : Fin 2) * 128 ≤ (i 1).val ∧ (i 1).val < win2_7.index _ (1 : Fin 2) * 128 + 128; rw [e7]; omega

end Cert.KernelIdeal.Hand

end
-- ==== Proof.Reg3.lean ====
/-
  The pooling head's region: its output array after the run.

  The grid has 20 points. Point t fetches rows 5000·t … 5000·t + 4999 of the node features and the whole of both weights
  and both one-row biases, and writes back the same rows of the two-column output. What point t writes back is block t of
  `pool h Wp bp Wo bo`: the hidden row is rectified inside the sum over the hidden axis. The 20 blocks cover the 100000
  rows, so the output array ends at `pool h Wp bp Wo bo` of the arrays the region found.
-/
import proofs.«171730_j7868380086413_1_alg».proof.Proof.Gen.KernelIdeal.Frame
import proofs.«171730_j7868380086413_1_alg».proof.Proof.Pay
import Idealize.ShloMosaic.Lib.Pipeline.Value
import Idealize.ShloMosaic.Lib.Tactic
import proofs.«171730_j7868380086413_1_alg».proof.Proof.Reg0
set_option maxRecDepth 16384

noncomputable section

namespace Cert.KernelIdeal.Hand

open Cert.KernelIdeal Cert.KernelIdeal.Gen Cert.Rgcn Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps, decided over the grid: the node features and the output move with the point along the rows;
    the weights and the biases stay. -/
theorem index_maps3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = t.val
    ∧ win3_5.index t (1 : Fin 2) = 0 :=
  (by decide +kernel : ∀ t : Fin grid3.N, _)

/-- WHAT POINT t WRITES BACK is block t of the pooling head of the arrays as the region finds them. -/
theorem flushed3 (c : Dev nD) (t : Fin cfg3.N) :
    (dat3 V c).flushed 5 t = ((cfg3.win 5).blk t).view.read (Elt Ideal)
      (pool (V c main_v109) (V c main_arg8) (V c main_v5) (V c main_arg10) (V c main_v6)) := by
  show (cfg3.win 5).cut (grid3.coords t) ((dat3 V c).after 5 t) = _
  rw [after3_5]
  unfold out3_5
  rw [View.canon_unit_zero zero_offsets]
  simp only [View.ld_unit_zero (S := S5000x128) zero_offsets, View.ld_unit_zero (S := S128x128) zero_offsets,
    View.ld_unit_zero (S := S1x128) zero_offsets, View.ld_unit_zero (S := S128x2) zero_offsets, View.ld_unit_zero (S := S1x2) zero_offsets]
  obtain ⟨e0_0, e0_1, e1_0, e1_1, e2_0, e2_1, e3_0, e3_1, e4_0, e4_1, e5_0, e5_1⟩ := index_maps3 t
  have ht : t.val < 20 := by have hN : grid3.N = 20 := N_3; have h : t.val < grid3.N := t.isLt; omega
  funext j
  obtain ⟨p, q, rfl⟩ : ∃ (p : Fin 5000) (q : Fin 2), j = ix2 p q := ⟨j 0, j 1, eq_ix2 j⟩
  have hp : p.val < 5000 := p.isLt
  obtain ⟨r, hr⟩ : ∃ r : Fin 100000, r.val = 5000 * t.val + p.val := ⟨⟨5000 * t.val + p.val, by omega⟩, rfl⟩
  have hout : ((View.whole main_v110).slice ((win3 5).rect t)).emb (ix2 p q) = ix2 r q := by
    funext a; apply Fin.ext
    match a with
    | ⟨0, _⟩ => show win3_5.index t (0 : Fin 2) * 5000 + 1 * p.val = r.val; rw [e5_0, hr]; omega
    | ⟨1, _⟩ => show win3_5.index t (1 : Fin 2) * 2 + 1 * q.val = q.val; rw [e5_1]; omega
  have hrow : ∀ k : Fin 128, iblk3 V c 0 t (ix2 p k) = V c main_v109 (ix2 r k) := fun k => by
    show V c main_v109 (((cfg3.win 0).blk t).view.emb (ix2 p k)) = _
    congr 1; funext a; apply Fin.ext
    match a with
    | ⟨0, _⟩ => show win3_0.index t (0 : Fin 2) * 5000 + 1 * p.val = r.val; rw [e0_0, hr]; omega
    | ⟨1, _⟩ => show win3_0.index t (1 : Fin 2) * 128 + 1 * k.val = k.val; rw [e0_1]; omega
  have hwp : ∀ k k' : Fin 128, iblk3 V c 1 t (ix2 k k') = V c main_arg8 (ix2 k k') := fun k k' => by
    show V c main_arg8 (((cfg3.win 1).blk t).view.emb (ix2 k k')) = _
    congr 1; funext a; apply Fin.ext
    match a with
    | ⟨0, _⟩ => show win3_1.index t (0 : Fin 2) * 128 + 1 * k.val = k.val; rw [e1_0]; omega
    | ⟨1, _⟩ => show win3_1.index t (1 : Fin 2) * 128 + 1 * k'.val = k'.val; rw [e1_1]; omega
  have hbp : ∀ k : Fin 128, iblk3 V c 2 t (ix2 (0 : Fin 1) k) = V c main_v5 (ix2 (0 : Fin 1) k) := fun k => by
    show V c main_v5 (((cfg3.win 2).blk t).view.emb (ix2 (0 : Fin 1) k)) = _
    congr 1; funext a; apply Fin.ext
    match a with
    | ⟨0, _⟩ => show win3_2.index t (0 : Fin 2) * 1 + 1 * 0 = 0; rw [e2_0]
    | ⟨1, _⟩ => show win3_2.index t (1 : Fin 2) * 128 + 1 * k.val = k.val; rw [e2_1]; omega
  have hwo : ∀ k : Fin 128, iblk3 V c 3 t (ix2 k q) = V c main_arg10 (ix2 k q) := fun k => by
    show V c main_arg10 (((cfg3.win 3).blk t).view.emb (ix2 k q)) = _
    congr 1; funext a; apply Fin.ext
    match a with
    | ⟨0, _⟩ => show win3_3.index t (0 : Fin 2) * 128 + 1 * k.val = k.val; rw [e3_0]; omega
    | ⟨1, _⟩ => show win3_3.index t (1 : Fin 2) * 2 + 1 * q.val = q.val; rw [e3_1]; omega
  have hbo : iblk3 V c 4 t (ix2 (0 : Fin 1) q) = V c main_v6 (ix2 (0 : Fin 1) q) := by
    show V c main_v6 (((cfg3.win 4).blk t).view.emb (ix2 (0 : Fin 1) q)) = _
    congr 1; funext a; apply Fin.ext
    match a with
    | ⟨0, _⟩ => show win3_4.index t (0 : Fin 2) * 1 + 1 * 0 = 0; rw [e4_0]
    | ⟨1, _⟩ => show win3_4.index t (1 : Fin 2) * 2 + 1 * q.val = q.val; rw [e4_1]; omega
  show k3_pay1 (iblk3 V c 0 t) (iblk3 V c 1 t) (iblk3 V c 2 t) (iblk3 V c 3 t) (iblk3 V c 4 t) (ix2 p q)
    = pool (V c main_v109) (V c main_arg8) (V c main_v5) (V c main_arg10) (V c main_v6) (((View.whole main_v110).slice ((win3 5).rect t)).emb (ix2 p q))
  rw [hout]
  refine (pay3_apply (iblk3 V c 0 t) (iblk3 V c 1 t) (iblk3 V c 2 t) (iblk3 V c 3 t) (iblk3 V c 4 t) p q).trans ?_
  show (∑ k : Fin 128, max (dotAt (iblk3 V c 0 t) (iblk3 V c 1 t) p k + iblk3 V c 2 t (ix2 (0 : Fin 1) k)) zeroWord * iblk3 V c 3 t (ix2 k q)) + iblk3 V c 4 t (ix2 (0 : Fin 1) q)
    = (∑ k : Fin 128, max (dotAt (V c main_v109) (V c main_arg8) r k + V c main_v5 (ix2 (0 : Fin 1) k)) zeroWord * V c main_arg10 (ix2 k q)) + V c main_v6 (ix2 (0 : Fin 1) q)
  rw [hbo]
  refine congrArg (· + _) (Finset.sum_congr rfl fun k _ => ?_)
  have sk : dotAt (iblk3 V c 0 t) (iblk3 V c 1 t) p k = dotAt (V c main_v109) (V c main_arg8) r k :=
    Finset.sum_congr rfl fun k' _ => by rw [hrow k', hwp k' k]
  rw [sk, hbp k, hwo k]

/-- An index of the output array is in point t's block iff each coordinate is in the block's range on its axis. -/
theorem mem_block3 (t : Fin cfg3.N) (i : S100000x2.Idx) :
    i ∈ ((cfg3.win 5).blk t).view.set ↔ ∀ a : Fin 2, win3_5.index t a * S5000x2.size a ≤ (i a).val ∧ (i a).val < win3_5.index t a * S5000x2.size a + S5000x2.size a := by
  show i ∈ ((View.whole main_v110).slice (win3_5.rect t)).set ↔ _
  rw [View.set_slice_whole, Rect.mem_set_unit]
  exact Iff.rfl

/-- THE OUTPUT ARRAY after the region: the pooling head of the arrays the region found (row i lies in block i / 5000). -/
theorem final3 (c : Dev nD) :
    (dat3 V c).arrAt 5 cfg3.N = pool (V c main_v109) (V c main_arg8) (V c main_v5) (V c main_arg10) (V c main_v6) :=
  (dat3 V c).arrAt_eq_of_cover 5 _ (fun t _ => flushed3 V c t) fun i => by
    have hi0 : (i 0).val < 100000 := (i 0).isLt
    have hi1 : (i 1).val < 2 := (i 1).isLt
    have hN : cfg3.N = 20 := N_3
    refine ⟨⟨(i 0).val / 5000, by rw [hN]; omega⟩, flush3_5 _, ?_⟩
    rw [mem_block3]
    obtain ⟨-, -, -, -, -, -, -, -, -, -, e6, e7⟩ := index_maps3 ⟨(i 0).val / 5000, by rw [hN]; omega⟩
    intro a
    match a with
    | ⟨0, _⟩ => show win3_5.index _ (0 : Fin 2) * 5000 ≤ (i 0).val ∧ (i 0).val < win3_5.index _ (0 : Fin 2) * 5000 + 5000; rw [e6]; show (i 0).val / 5000 * 5000 ≤ (i 0).val ∧ (i 0).val < (i 0).val / 5000 * 5000 + 5000; omega
    | ⟨1, _⟩ => show win3_5.index _ (1 : Fin 2) * 2 ≤ (i 1).val ∧ (i 1).val < win3_5.index _ (1 : Fin 2) * 2 + 2; rw [e7]; omega

end Cert.KernelIdeal.Hand

end
-- ==== Proof.RefStages.lean ====
/-
  The reference program's four dense stages, read index by index, are the specification's whole-array stages.

  Each stage of the reference is a chain of elementwise operations around matrix products. Reading the chain at an
  index (r, q) gives a sum over the shared axis of products of operand entries, plus a broadcast bias entry, and for
  the rectified stages a maximum with the word of +0.0. The specification states the same entry directly. A bias
  enters as any one-row matrix that agrees with the reference's bias vector entry by entry.
-/
import proofs.«171730_j7868380086413_1_alg».proof.Proof.Gen.ReferenceIdeal.Read
import proofs.«171730_j7868380086413_1_alg».proof.Proof.Spec
import Idealize.ShloMosaic.Lib.ValueIdx
import Idealize.ShloMosaic.Lib.ValueLayout
import Idealize.ShloMosaic.Lib.Pipeline.Value

noncomputable section

namespace Cert.ReferenceIdeal.RefStages

open Cert.ReferenceIdeal Cert.ReferenceIdeal.Read Cert.Rgcn Idealize.ShloMosaic Idealize.ShloMosaic.ValueIdx

/-- A sum over the shared axis whose two index functions read row r of the left operand and column q of the right
    operand is the entry (r, q) of the matrix product. -/
private theorem dot_read {M K N : Nat} (A : (⟨2, ![M, K]⟩ : Shape).Idx → EReal) (W : (⟨2, ![K, N]⟩ : Shape).Idx → EReal)
    (r : Fin M) (q : Fin N) (li : Fin K → (⟨2, ![M, K]⟩ : Shape).Idx) (ri : Fin K → (⟨2, ![K, N]⟩ : Shape).Idx)
    (hl : ∀ k, li k = ix2 r k) (hr : ∀ k, ri k = ix2 k q) :
    (∑ k : Fin K, A (li k) * W (ri k)) = dotAt A W r q := by
  unfold dotAt
  exact Finset.sum_congr rfl fun k _ => by rw [hl k, hr k]

/-- The input projection's entry (r, q) from its two summands. -/
private theorem project_read (x : (⟨2, ![100000, 768]⟩ : Shape).Idx → EReal) (W : (⟨2, ![768, 128]⟩ : Shape).Idx → EReal)
    (b : (⟨2, ![1, 128]⟩ : Shape).Idx → EReal) (r : Fin 100000) (q : Fin 128) (s bb : EReal)
    (hs : s = dotAt x W r q) (hbb : bb = b (ix2 (0 : Fin 1) q)) :
    s + bb = project x W b (ix2 r q) := by
  subst hs hbb
  rfl

/-- A relational layer's entry (r, q) from its four summands, the bias added right after the root product:
    the sum is reordered so that the bias comes last, as the specification has it. -/
private theorem layer_read (h a0 a1 : (⟨2, ![100000, 128]⟩ : Shape).Idx → EReal) (R W0 W1 : (⟨2, ![128, 128]⟩ : Shape).Idx → EReal)
    (b : (⟨2, ![1, 128]⟩ : Shape).Idx → EReal) (r : Fin 100000) (q : Fin 128) (s s0 s1 bb : EReal)
    (hs : s = dotAt h R r q) (hs0 : s0 = dotAt a0 W0 r q) (hs1 : s1 = dotAt a1 W1 r q)
    (hbb : bb = b (ix2 (0 : Fin 1) q)) :
    max (s + bb + s0 + s1) zeroWord = layer h a0 a1 R W0 W1 b (ix2 r q) := by
  subst hs hs0 hs1 hbb
  rw [layer_sum_comm]
  rfl

/-- The pooling head's hidden entry (r, q) from its two summands. -/
private theorem hidden_read (h : (⟨2, ![100000, 128]⟩ : Shape).Idx → EReal) (Wp : (⟨2, ![128, 128]⟩ : Shape).Idx → EReal)
    (bp : (⟨2, ![1, 128]⟩ : Shape).Idx → EReal) (r : Fin 100000) (q : Fin 128) (s bb : EReal)
    (hs : s = dotAt h Wp r q) (hbb : bb = bp (ix2 (0 : Fin 1) q)) :
    max (s + bb) zeroWord = hidden h Wp bp (ix2 r q) := by
  subst hs hbb
  rfl

/-- The input projection: the product x · W read at (r, q), plus the bias entry q. -/
theorem project_eq
    (x0 : (⟨S100000x768, .f32⟩ : BufTy).Contents (Elt Ideal)) (x3 : (⟨S768x128, .f32⟩ : BufTy).Contents (Elt Ideal))
    (x4 : (⟨S128, .f32⟩ : BufTy).Contents (Elt Ideal))
    (b2 : S1x128.Idx → EReal) (hb : ∀ q : Fin 128, b2 (ix2 (0 : Fin 1) q) = x4 (ix1 q)) :
    val_main_v7 (F := Ideal) x0 x3 x4 = project x0 x3 b2 := by
  funext i
  obtain ⟨r, q, rfl⟩ : ∃ (r : Fin 100000) (q : Fin 128), i = ix2 r q := ⟨i 0, i 1, eq_ix2 i⟩
  rw [val_main_v7_apply, val_main_v4_apply, val_main_v6_apply, val_main_v5_apply]
  have eb : idx_main_v5 (idx_main_v6 (ix2 r q)) = ix1 q := funext fun a => Fin.ext (by match a with | ⟨0, _⟩ => rfl)
  exact project_read x0 x3 b2 r q _ _
    (dot_read (x0) (x3) r q (lidx_main_v4 (ix2 r q)) (ridx_main_v4 (ix2 r q))
      (fun k => funext fun a => Fin.ext (by match a with | ⟨0, _⟩ => rfl | ⟨1, _⟩ => rfl))
      (fun k => funext fun a => Fin.ext (by match a with | ⟨0, _⟩ => rfl | ⟨1, _⟩ => rfl)))
    ((congrArg x4 eb).trans (hb q).symm)

/-- The first relational layer: root product plus bias, plus the two relation products, rectified. -/
theorem layer0_eq
    (x0 : (⟨S100000x768, .f32⟩ : BufTy).Contents (Elt Ideal)) (x1 : (⟨S2x1000000, .i32⟩ : BufTy).Contents (Elt Ideal))
    (x2 : (⟨S1000000, .i32⟩ : BufTy).Contents (Elt Ideal)) (x3 : (⟨S768x128, .f32⟩ : BufTy).Contents (Elt Ideal))
    (x4 : (⟨S128, .f32⟩ : BufTy).Contents (Elt Ideal)) (x5 : (⟨S2x2x128x128, .f32⟩ : BufTy).Contents (Elt Ideal))
    (x6 : (⟨S2x128x128, .f32⟩ : BufTy).Contents (Elt Ideal)) (x7 : (⟨S2x128, .f32⟩ : BufTy).Contents (Elt Ideal))
    (b2 : S1x128.Idx → EReal)
    (hb : ∀ q : Fin 128, b2 (ix2 (0 : Fin 1) q) = val_main_v19 (F := Ideal) x7 (ix1 q)) :
    val_main_v65 (F := Ideal) x0 x1 x2 x3 x4 x5 x6 x7
      = layer (val_main_v7 (F := Ideal) x0 x3 x4) (val_main_v39 (F := Ideal) x0 x1 x2 x3 x4) (val_main_v60 (F := Ideal) x0 x1 x2 x3 x4)
          (val_main_v16 (F := Ideal) x6) (val_main_v41 (F := Ideal) x5) (val_main_v62 (F := Ideal) x5) b2 := by
  funext i
  obtain ⟨r, q, rfl⟩ : ∃ (r : Fin 100000) (q : Fin 128), i = ix2 r q := ⟨i 0, i 1, eq_ix2 i⟩
  rw [val_main_v65_apply, val_main_v64_apply, val_main_v43_apply, val_main_v22_apply, val_main_v17_apply,
    val_main_v42_apply, val_main_v63_apply, val_main_v21_apply, val_main_v20_apply,
    val_main_call0_v0_apply, val_main_call0_cst_apply]
  have eb : idx_main_v20 (idx_main_v21 (ix2 r q)) = ix1 q := funext fun a => Fin.ext (by match a with | ⟨0, _⟩ => rfl)
  exact layer_read _ _ _ _ _ _ b2 r q _ _ _ _
    (dot_read (val_main_v7 (F := Ideal) x0 x3 x4) (val_main_v16 (F := Ideal) x6) r q (lidx_main_v17 (ix2 r q)) (ridx_main_v17 (ix2 r q))
      (fun k => funext fun a => Fin.ext (by match a with | ⟨0, _⟩ => rfl | ⟨1, _⟩ => rfl))
      (fun k => funext fun a => Fin.ext (by match a with | ⟨0, _⟩ => rfl | ⟨1, _⟩ => rfl)))
    (dot_read (val_main_v39 (F := Ideal) x0 x1 x2 x3 x4) (val_main_v41 (F := Ideal) x5) r q (lidx_main_v42 (ix2 r q)) (ridx_main_v42 (ix2 r q))
      (fun k => funext fun a => Fin.ext (by match a with | ⟨0, _⟩ => rfl | ⟨1, _⟩ => rfl))
      (fun k => funext fun a => Fin.ext (by match a with | ⟨0, _⟩ => rfl | ⟨1, _⟩ => rfl)))
    (dot_read (val_main_v60 (F := Ideal) x0 x1 x2 x3 x4) (val_main_v62 (F := Ideal) x5) r q (lidx_main_v63 (ix2 r q)) (ridx_main_v63 (ix2 r q))
      (fun k => funext fun a => Fin.ext (by match a with | ⟨0, _⟩ => rfl | ⟨1, _⟩ => rfl))
      (fun k => funext fun a => Fin.ext (by match a with | ⟨0, _⟩ => rfl | ⟨1, _⟩ => rfl)))
    ((congrArg (val_main_v19 (F := Ideal) x7) eb).trans (hb q).symm)

/-- The second relational layer, on the first layer's output. -/
theorem layer1_eq
    (x0 : (⟨S100000x768, .f32⟩ : BufTy).Contents (Elt Ideal)) (x1 : (⟨S2x1000000, .i32⟩ : BufTy).Contents (Elt Ideal))
    (x2 : (⟨S1000000, .i32⟩ : BufTy).Contents (Elt Ideal)) (x3 : (⟨S768x128, .f32⟩ : BufTy).Contents (Elt Ideal))
    (x4 : (⟨S128, .f32⟩ : BufTy).Contents (Elt Ideal)) (x5 : (⟨S2x2x128x128, .f32⟩ : BufTy).Contents (Elt Ideal))
    (x6 : (⟨S2x128x128, .f32⟩ : BufTy).Contents (Elt Ideal)) (x7 : (⟨S2x128, .f32⟩ : BufTy).Contents (Elt Ideal))
    (b2 : S1x128.Idx → EReal)
    (hb : ∀ q : Fin 128, b2 (ix2 (0 : Fin 1) q) = val_main_v77 (F := Ideal) x7 (ix1 q)) :
    val_main_v123 (F := Ideal) x0 x1 x2 x3 x4 x5 x6 x7
      = layer (val_main_v65 (F := Ideal) x0 x1 x2 x3 x4 x5 x6 x7) (val_main_v97 (F := Ideal) x0 x1 x2 x3 x4 x5 x6 x7) (val_main_v118 (F := Ideal) x0 x1 x2 x3 x4 x5 x6 x7)
          (val_main_v74 (F := Ideal) x6) (val_main_v99 (F := Ideal) x5) (val_main_v120 (F := Ideal) x5) b2 := by
  funext i
  obtain ⟨r, q, rfl⟩ : ∃ (r : Fin 100000) (q : Fin 128), i = ix2 r q := ⟨i 0, i 1, eq_ix2 i⟩
  rw [val_main_v123_apply, val_main_v122_apply, val_main_v101_apply, val_main_v80_apply, val_main_v75_apply,
    val_main_v100_apply, val_main_v121_apply, val_main_v79_apply, val_main_v78_apply,
    val_main_call1_v0_apply, val_main_call1_cst_apply]
  have eb : idx_main_v78 (idx_main_v79 (ix2 r q)) = ix1 q := funext fun a => Fin.ext (by match a with | ⟨0, _⟩ => rfl)
  exact layer_read _ _ _ _ _ _ b2 r q _ _ _ _
    (dot_read (val_main_v65 (F := Ideal) x0 x1 x2 x3 x4 x5 x6 x7) (val_main_v74 (F := Ideal) x6) r q (lidx_main_v75 (ix2 r q)) (ridx_main_v75 (ix2 r q))
      (fun k => funext fun a => Fin.ext (by match a with | ⟨0, _⟩ => rfl | ⟨1, _⟩ => rfl))
      (fun k => funext fun a => Fin.ext (by match a with | ⟨0, _⟩ => rfl | ⟨1, _⟩ => rfl)))
    (dot_read (val_main_v97 (F := Ideal) x0 x1 x2 x3 x4 x5 x6 x7) (val_main_v99 (F := Ideal) x5) r q (lidx_main_v100 (ix2 r q)) (ridx_main_v100 (ix2 r q))
      (fun k => funext fun a => Fin.ext (by match a with | ⟨0, _⟩ => rfl | ⟨1, _⟩ => rfl))
      (fun k => funext fun a => Fin.ext (by match a with | ⟨0, _⟩ => rfl | ⟨1, _⟩ => rfl)))
    (dot_read (val_main_v118 (F := Ideal) x0 x1 x2 x3 x4 x5 x6 x7) (val_main_v120 (F := Ideal) x5) r q (lidx_main_v121 (ix2 r q)) (ridx_main_v121 (ix2 r q))
      (fun k => funext fun a => Fin.ext (by match a with | ⟨0, _⟩ => rfl | ⟨1, _⟩ => rfl))
      (fun k => funext fun a => Fin.ext (by match a with | ⟨0, _⟩ => rfl | ⟨1, _⟩ => rfl)))
    ((congrArg (val_main_v77 (F := Ideal) x7) eb).trans (hb q).symm)

/-- The pooling head's hidden activations: the product h · Wp plus the bias, rectified. -/
theorem hidden_eq
    (x0 : (⟨S100000x768, .f32⟩ : BufTy).Contents (Elt Ideal)) (x1 : (⟨S2x1000000, .i32⟩ : BufTy).Contents (Elt Ideal))
    (x2 : (⟨S1000000, .i32⟩ : BufTy).Contents (Elt Ideal)) (x3 : (⟨S768x128, .f32⟩ : BufTy).Contents (Elt Ideal))
    (x4 : (⟨S128, .f32⟩ : BufTy).Contents (Elt Ideal)) (x5 : (⟨S2x2x128x128, .f32⟩ : BufTy).Contents (Elt Ideal))
    (x6 : (⟨S2x128x128, .f32⟩ : BufTy).Contents (Elt Ideal)) (x7 : (⟨S2x128, .f32⟩ : BufTy).Contents (Elt Ideal))
    (x8 : (⟨S128x128, .f32⟩ : BufTy).Contents (Elt Ideal)) (x9 : (⟨S128, .f32⟩ : BufTy).Contents (Elt Ideal))
    (bp2 : S1x128.Idx → EReal) (hbp : ∀ q : Fin 128, bp2 (ix2 (0 : Fin 1) q) = x9 (ix1 q)) :
    val_main_v128 (F := Ideal) x0 x1 x2 x3 x4 x5 x6 x7 x8 x9 = hidden (val_main_v123 (F := Ideal) x0 x1 x2 x3 x4 x5 x6 x7) x8 bp2 := by
  funext i
  obtain ⟨r, q, rfl⟩ : ∃ (r : Fin 100000) (q : Fin 128), i = ix2 r q := ⟨i 0, i 1, eq_ix2 i⟩
  rw [val_main_v128_apply, val_main_v127_apply, val_main_v124_apply, val_main_v126_apply, val_main_v125_apply,
    val_main_call2_v0_apply, val_main_call2_cst_apply]
  have eb : idx_main_v125 (idx_main_v126 (ix2 r q)) = ix1 q := funext fun a => Fin.ext (by match a with | ⟨0, _⟩ => rfl)
  exact hidden_read _ x8 bp2 r q _ _
    (dot_read (val_main_v123 (F := Ideal) x0 x1 x2 x3 x4 x5 x6 x7) (x8) r q (lidx_main_v124 (ix2 r q)) (ridx_main_v124 (ix2 r q))
      (fun k => funext fun a => Fin.ext (by match a with | ⟨0, _⟩ => rfl | ⟨1, _⟩ => rfl))
      (fun k => funext fun a => Fin.ext (by match a with | ⟨0, _⟩ => rfl | ⟨1, _⟩ => rfl)))
    ((congrArg x9 eb).trans (hbp q).symm)

/-- The pooling head: the hidden activations through the output weight, plus the output bias. -/
theorem pool_eq
    (x0 : (⟨S100000x768, .f32⟩ : BufTy).Contents (Elt Ideal)) (x1 : (⟨S2x1000000, .i32⟩ : BufTy).Contents (Elt Ideal))
    (x2 : (⟨S1000000, .i32⟩ : BufTy).Contents (Elt Ideal)) (x3 : (⟨S768x128, .f32⟩ : BufTy).Contents (Elt Ideal))
    (x4 : (⟨S128, .f32⟩ : BufTy).Contents (Elt Ideal)) (x5 : (⟨S2x2x128x128, .f32⟩ : BufTy).Contents (Elt Ideal))
    (x6 : (⟨S2x128x128, .f32⟩ : BufTy).Contents (Elt Ideal)) (x7 : (⟨S2x128, .f32⟩ : BufTy).Contents (Elt Ideal))
    (x8 : (⟨S128x128, .f32⟩ : BufTy).Contents (Elt Ideal)) (x9 : (⟨S128, .f32⟩ : BufTy).Contents (Elt Ideal))
    (x10 : (⟨S128x2, .f32⟩ : BufTy).Contents (Elt Ideal)) (x11 : (⟨S2, .f32⟩ : BufTy).Contents (Elt Ideal))
    (bp2 : S1x128.Idx → EReal) (bo2 : S1x2.Idx → EReal)
    (hbp : ∀ q : Fin 128, bp2 (ix2 (0 : Fin 1) q) = x9 (ix1 q))
    (hbo : ∀ q : Fin 2, bo2 (ix2 (0 : Fin 1) q) = x11 (ix1 q)) :
    val_main_v132 (F := Ideal) x0 x1 x2 x3 x4 x5 x6 x7 x8 x9 x10 x11
      = pool (val_main_v123 (F := Ideal) x0 x1 x2 x3 x4 x5 x6 x7) x8 bp2 x10 bo2 := by
  funext i
  obtain ⟨r, q, rfl⟩ : ∃ (r : Fin 100000) (q : Fin 2), i = ix2 r q := ⟨i 0, i 1, eq_ix2 i⟩
  rw [val_main_v132_apply, val_main_v129_apply, val_main_v131_apply, val_main_v130_apply,
    hidden_eq x0 x1 x2 x3 x4 x5 x6 x7 x8 x9 bp2 hbp]
  have eb : idx_main_v130 (idx_main_v131 (ix2 r q)) = ix1 q := funext fun a => Fin.ext (by match a with | ⟨0, _⟩ => rfl)
  have hd := dot_read (hidden (val_main_v123 (F := Ideal) x0 x1 x2 x3 x4 x5 x6 x7) x8 bp2) (x10) r q (lidx_main_v129 (ix2 r q)) (ridx_main_v129 (ix2 r q))
      (fun k => funext fun a => Fin.ext (by match a with | ⟨0, _⟩ => rfl | ⟨1, _⟩ => rfl))
      (fun k => funext fun a => Fin.ext (by match a with | ⟨0, _⟩ => rfl | ⟨1, _⟩ => rfl))
  have hbias : x11 (idx_main_v130 (idx_main_v131 (ix2 r q))) = bo2 (ix2 (0 : Fin 1) q) :=
    (congrArg x11 eb).trans (hbo q).symm
  show (∑ k : Fin 128, hidden (val_main_v123 (F := Ideal) x0 x1 x2 x3 x4 x5 x6 x7) x8 bp2 (lidx_main_v129 (ix2 r q) k)
        * x10 (ridx_main_v129 (ix2 r q) k)) + x11 (idx_main_v130 (idx_main_v131 (ix2 r q)))
      = dotAt (hidden (val_main_v123 (F := Ideal) x0 x1 x2 x3 x4 x5 x6 x7) x8 bp2) x10 r q + bo2 (ix2 (0 : Fin 1) q)
  rw [hd, hbias]

end Cert.ReferenceIdeal.RefStages

end
-- ==== Proof.Keeps.lean ====
/-
  A buffer that no operation of a host stretch writes holds after the stretch what it held before it: every operation
  writes its one result buffer, and that buffer is another one.
-/
import proofs.«171730_j7868380086413_1_alg».proof.Proof.Gen.KernelIdeal.Launch
import Idealize.ShloMosaic.Lib.StableHlo.Run
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem

/-- Closes `StableHlo.after ops W b = W b` for one of @main's three host stretches and a buffer none of its operations
    writes: the result buffers are compared with the buffer one by one. -/
macro "host_keeps" : tactic => `(tactic| (
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

end Cert.KernelIdeal.Hand

end
-- ==== Proof.Carry.lean ====
/-
  What the buffers that travel through @main hold at each segment boundary.

  The first host stretch slices the edge list into its source and destination rows and reshapes the three bias vectors into
  one-row matrices. After it, the edge rows, the edge types, the weight arguments and the reshaped biases are read by later
  segments only: no later host operation writes them and no region has them as an array, so at every later boundary they
  hold what they held after the first stretch.
-/
import proofs.«171730_j7868380086413_1_alg».proof.Proof.Gen.KernelIdeal.Frame
import proofs.«171730_j7868380086413_1_alg».proof.Proof.Gen.ReferenceIdeal.Read
import proofs.«171730_j7868380086413_1_alg».proof.Proof.Keeps
import Idealize.ShloMosaic.Lib.ValueIdx
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Cert.ReferenceIdeal.Read

variable (m : (ℓ : Loc nD τ sig) → Buf (Elt Ideal) ℓ) (ρ : Dev nD → PrngReg) (c : Dev nD)

/-! ## After the first host stretch -/

theorem W1_arg0 : W1 m ρ c (Proc.devRef .tc main_arg0) = m ((c : Thread nD τ).loc main_arg0) :=
  show StableHlo.after hostOps0 (W0 m ρ c) (Proc.devRef .tc main_arg0) = W0 m ρ c (Proc.devRef .tc main_arg0) from by host_keeps
theorem W1_arg2 : W1 m ρ c (Proc.devRef .tc main_arg2) = m ((c : Thread nD τ).loc main_arg2) :=
  show StableHlo.after hostOps0 (W0 m ρ c) (Proc.devRef .tc main_arg2) = W0 m ρ c (Proc.devRef .tc main_arg2) from by host_keeps
theorem W1_arg3 : W1 m ρ c (Proc.devRef .tc main_arg3) = m ((c : Thread nD τ).loc main_arg3) :=
  show StableHlo.after hostOps0 (W0 m ρ c) (Proc.devRef .tc main_arg3) = W0 m ρ c (Proc.devRef .tc main_arg3) from by host_keeps
theorem W1_arg5 : W1 m ρ c (Proc.devRef .tc main_arg5) = m ((c : Thread nD τ).loc main_arg5) :=
  show StableHlo.after hostOps0 (W0 m ρ c) (Proc.devRef .tc main_arg5) = W0 m ρ c (Proc.devRef .tc main_arg5) from by host_keeps
theorem W1_arg6 : W1 m ρ c (Proc.devRef .tc main_arg6) = m ((c : Thread nD τ).loc main_arg6) :=
  show StableHlo.after hostOps0 (W0 m ρ c) (Proc.devRef .tc main_arg6) = W0 m ρ c (Proc.devRef .tc main_arg6) from by host_keeps
theorem W1_arg7 : W1 m ρ c (Proc.devRef .tc main_arg7) = m ((c : Thread nD τ).loc main_arg7) :=
  show StableHlo.after hostOps0 (W0 m ρ c) (Proc.devRef .tc main_arg7) = W0 m ρ c (Proc.devRef .tc main_arg7) from by host_keeps
theorem W1_arg8 : W1 m ρ c (Proc.devRef .tc main_arg8) = m ((c : Thread nD τ).loc main_arg8) :=
  show StableHlo.after hostOps0 (W0 m ρ c) (Proc.devRef .tc main_arg8) = W0 m ρ c (Proc.devRef .tc main_arg8) from by host_keeps
theorem W1_arg10 : W1 m ρ c (Proc.devRef .tc main_arg10) = m ((c : Thread nD τ).loc main_arg10) :=
  show StableHlo.after hostOps0 (W0 m ρ c) (Proc.devRef .tc main_arg10) = W0 m ρ c (Proc.devRef .tc main_arg10) from by host_keeps

/-- The source row of the edge list, as the reference slices it. -/
theorem W1_v1 : W1 m ρ c (Proc.devRef .tc main_v1) = val_main_v1 (F := Ideal) (m ((c : Thread nD τ).loc main_arg1)) := by
  show StableHlo.after hostOps0 (W0 m ρ c) (Proc.devRef .tc main_v1) = _
  after_results
  rfl
/-- The destination row of the edge list, as the reference slices it. -/
theorem W1_v3 : W1 m ρ c (Proc.devRef .tc main_v3) = val_main_v3 (F := Ideal) (m ((c : Thread nD τ).loc main_arg1)) := by
  show StableHlo.after hostOps0 (W0 m ρ c) (Proc.devRef .tc main_v3) = _
  after_results
  rfl
/-- The input bias as a one-row matrix. -/
theorem W1_v4 (q : Fin 128) : W1 m ρ c (Proc.devRef .tc main_v4) (ix2 (0 : Fin 1) q) = (m ((c : Thread nD τ).loc main_arg4)) (ix1 q) := by
  have e : W1 m ρ c (Proc.devRef .tc main_v4) = shapeCast S1x128 (m ((c : Thread nD τ).loc main_arg4)) shapeCasts_S128_S1x128 := by
    show StableHlo.after hostOps0 (W0 m ρ c) (Proc.devRef .tc main_v4) = _
    after_results
    rfl
  exact (congrFun e _).trans (shapeCast_a_1a_apply _ _ 0 q)
/-- The hidden bias of the pooling head as a one-row matrix. -/
theorem W1_v5 (q : Fin 128) : W1 m ρ c (Proc.devRef .tc main_v5) (ix2 (0 : Fin 1) q) = (m ((c : Thread nD τ).loc main_arg9)) (ix1 q) := by
  have e : W1 m ρ c (Proc.devRef .tc main_v5) = shapeCast S1x128 (m ((c : Thread nD τ).loc main_arg9)) shapeCasts_S128_S1x128 := by
    show StableHlo.after hostOps0 (W0 m ρ c) (Proc.devRef .tc main_v5) = _
    after_results
    rfl
  exact (congrFun e _).trans (shapeCast_a_1a_apply _ _ 0 q)
/-- The output bias of the pooling head as a one-row matrix. -/
theorem W1_v6 (q : Fin 2) : W1 m ρ c (Proc.devRef .tc main_v6) (ix2 (0 : Fin 1) q) = (m ((c : Thread nD τ).loc main_arg11)) (ix1 q) := by
  have e : W1 m ρ c (Proc.devRef .tc main_v6) = shapeCast S1x2 (m ((c : Thread nD τ).loc main_arg11)) shapeCasts_S2_S1x2 := by
    show StableHlo.after hostOps0 (W0 m ρ c) (Proc.devRef .tc main_v6) = _
    after_results
    rfl
  exact (congrFun e _).trans (shapeCast_a_1a_apply _ _ 0 q)

/-! ## Carried to the later boundaries -/

theorem at2_main_v1 : W2 m ρ c (Proc.devRef .tc main_v1) = W1 m ρ c (Proc.devRef .tc main_v1) := W2_of_ne m ρ c main_v1 (by decide)
theorem at3_main_v1 : W3 m ρ c (Proc.devRef .tc main_v1) = W1 m ρ c (Proc.devRef .tc main_v1) :=
  (show StableHlo.after hostOps1 (W2 m ρ c) (Proc.devRef .tc main_v1) = W2 m ρ c (Proc.devRef .tc main_v1) from by host_keeps).trans (at2_main_v1 m ρ c)
theorem at4_main_v1 : W4 m ρ c (Proc.devRef .tc main_v1) = W1 m ρ c (Proc.devRef .tc main_v1) := (W4_of_ne m ρ c main_v1 (by decide)).trans (at3_main_v1 m ρ c)

theorem at2_main_v3 : W2 m ρ c (Proc.devRef .tc main_v3) = W1 m ρ c (Proc.devRef .tc main_v3) := W2_of_ne m ρ c main_v3 (by decide)
theorem at3_main_v3 : W3 m ρ c (Proc.devRef .tc main_v3) = W1 m ρ c (Proc.devRef .tc main_v3) :=
  (show StableHlo.after hostOps1 (W2 m ρ c) (Proc.devRef .tc main_v3) = W2 m ρ c (Proc.devRef .tc main_v3) from by host_keeps).trans (at2_main_v3 m ρ c)
theorem at4_main_v3 : W4 m ρ c (Proc.devRef .tc main_v3) = W1 m ρ c (Proc.devRef .tc main_v3) := (W4_of_ne m ρ c main_v3 (by decide)).trans (at3_main_v3 m ρ c)

theorem at2_main_arg2 : W2 m ρ c (Proc.devRef .tc main_arg2) = W1 m ρ c (Proc.devRef .tc main_arg2) := W2_of_ne m ρ c main_arg2 (by decide)
theorem at3_main_arg2 : W3 m ρ c (Proc.devRef .tc main_arg2) = W1 m ρ c (Proc.devRef .tc main_arg2) :=
  (show StableHlo.after hostOps1 (W2 m ρ c) (Proc.devRef .tc main_arg2) = W2 m ρ c (Proc.devRef .tc main_arg2) from by host_keeps).trans (at2_main_arg2 m ρ c)
theorem at4_main_arg2 : W4 m ρ c (Proc.devRef .tc main_arg2) = W1 m ρ c (Proc.devRef .tc main_arg2) := (W4_of_ne m ρ c main_arg2 (by decide)).trans (at3_main_arg2 m ρ c)

theorem at2_main_arg5 : W2 m ρ c (Proc.devRef .tc main_arg5) = W1 m ρ c (Proc.devRef .tc main_arg5) := W2_of_ne m ρ c main_arg5 (by decide)
theorem at3_main_arg5 : W3 m ρ c (Proc.devRef .tc main_arg5) = W1 m ρ c (Proc.devRef .tc main_arg5) :=
  (show StableHlo.after hostOps1 (W2 m ρ c) (Proc.devRef .tc main_arg5) = W2 m ρ c (Proc.devRef .tc main_arg5) from by host_keeps).trans (at2_main_arg5 m ρ c)
theorem at4_main_arg5 : W4 m ρ c (Proc.devRef .tc main_arg5) = W1 m ρ c (Proc.devRef .tc main_arg5) := (W4_of_ne m ρ c main_arg5 (by decide)).trans (at3_main_arg5 m ρ c)

theorem at2_main_arg6 : W2 m ρ c (Proc.devRef .tc main_arg6) = W1 m ρ c (Proc.devRef .tc main_arg6) := W2_of_ne m ρ c main_arg6 (by decide)
theorem at3_main_arg6 : W3 m ρ c (Proc.devRef .tc main_arg6) = W1 m ρ c (Proc.devRef .tc main_arg6) :=
  (show StableHlo.after hostOps1 (W2 m ρ c) (Proc.devRef .tc main_arg6) = W2 m ρ c (Proc.devRef .tc main_arg6) from by host_keeps).trans (at2_main_arg6 m ρ c)
theorem at4_main_arg6 : W4 m ρ c (Proc.devRef .tc main_arg6) = W1 m ρ c (Proc.devRef .tc main_arg6) := (W4_of_ne m ρ c main_arg6 (by decide)).trans (at3_main_arg6 m ρ c)

theorem at2_main_arg7 : W2 m ρ c (Proc.devRef .tc main_arg7) = W1 m ρ c (Proc.devRef .tc main_arg7) := W2_of_ne m ρ c main_arg7 (by decide)
theorem at3_main_arg7 : W3 m ρ c (Proc.devRef .tc main_arg7) = W1 m ρ c (Proc.devRef .tc main_arg7) :=
  (show StableHlo.after hostOps1 (W2 m ρ c) (Proc.devRef .tc main_arg7) = W2 m ρ c (Proc.devRef .tc main_arg7) from by host_keeps).trans (at2_main_arg7 m ρ c)
theorem at4_main_arg7 : W4 m ρ c (Proc.devRef .tc main_arg7) = W1 m ρ c (Proc.devRef .tc main_arg7) := (W4_of_ne m ρ c main_arg7 (by decide)).trans (at3_main_arg7 m ρ c)

theorem at2_main_v5 : W2 m ρ c (Proc.devRef .tc main_v5) = W1 m ρ c (Proc.devRef .tc main_v5) := W2_of_ne m ρ c main_v5 (by decide)
theorem at3_main_v5 : W3 m ρ c (Proc.devRef .tc main_v5) = W1 m ρ c (Proc.devRef .tc main_v5) :=
  (show StableHlo.after hostOps1 (W2 m ρ c) (Proc.devRef .tc main_v5) = W2 m ρ c (Proc.devRef .tc main_v5) from by host_keeps).trans (at2_main_v5 m ρ c)
theorem at4_main_v5 : W4 m ρ c (Proc.devRef .tc main_v5) = W1 m ρ c (Proc.devRef .tc main_v5) := (W4_of_ne m ρ c main_v5 (by decide)).trans (at3_main_v5 m ρ c)

theorem at2_main_v6 : W2 m ρ c (Proc.devRef .tc main_v6) = W1 m ρ c (Proc.devRef .tc main_v6) := W2_of_ne m ρ c main_v6 (by decide)
theorem at3_main_v6 : W3 m ρ c (Proc.devRef .tc main_v6) = W1 m ρ c (Proc.devRef .tc main_v6) :=
  (show StableHlo.after hostOps1 (W2 m ρ c) (Proc.devRef .tc main_v6) = W2 m ρ c (Proc.devRef .tc main_v6) from by host_keeps).trans (at2_main_v6 m ρ c)
theorem at4_main_v6 : W4 m ρ c (Proc.devRef .tc main_v6) = W1 m ρ c (Proc.devRef .tc main_v6) := (W4_of_ne m ρ c main_v6 (by decide)).trans (at3_main_v6 m ρ c)

theorem at2_main_arg8 : W2 m ρ c (Proc.devRef .tc main_arg8) = W1 m ρ c (Proc.devRef .tc main_arg8) := W2_of_ne m ρ c main_arg8 (by decide)
theorem at3_main_arg8 : W3 m ρ c (Proc.devRef .tc main_arg8) = W1 m ρ c (Proc.devRef .tc main_arg8) :=
  (show StableHlo.after hostOps1 (W2 m ρ c) (Proc.devRef .tc main_arg8) = W2 m ρ c (Proc.devRef .tc main_arg8) from by host_keeps).trans (at2_main_arg8 m ρ c)
theorem at4_main_arg8 : W4 m ρ c (Proc.devRef .tc main_arg8) = W1 m ρ c (Proc.devRef .tc main_arg8) := (W4_of_ne m ρ c main_arg8 (by decide)).trans (at3_main_arg8 m ρ c)

theorem at2_main_arg10 : W2 m ρ c (Proc.devRef .tc main_arg10) = W1 m ρ c (Proc.devRef .tc main_arg10) := W2_of_ne m ρ c main_arg10 (by decide)
theorem at3_main_arg10 : W3 m ρ c (Proc.devRef .tc main_arg10) = W1 m ρ c (Proc.devRef .tc main_arg10) :=
  (show StableHlo.after hostOps1 (W2 m ρ c) (Proc.devRef .tc main_arg10) = W2 m ρ c (Proc.devRef .tc main_arg10) from by host_keeps).trans (at2_main_arg10 m ρ c)
theorem at4_main_arg10 : W4 m ρ c (Proc.devRef .tc main_arg10) = W1 m ρ c (Proc.devRef .tc main_arg10) := (W4_of_ne m ρ c main_arg10 (by decide)).trans (at3_main_arg10 m ρ c)

theorem at5_main_v5 : W5 m ρ c (Proc.devRef .tc main_v5) = W1 m ρ c (Proc.devRef .tc main_v5) :=
  (show StableHlo.after hostOps2 (W4 m ρ c) (Proc.devRef .tc main_v5) = W4 m ρ c (Proc.devRef .tc main_v5) from by host_keeps).trans (at4_main_v5 m ρ c)
theorem at6_main_v5 : W6 m ρ c (Proc.devRef .tc main_v5) = W1 m ρ c (Proc.devRef .tc main_v5) := (W6_of_ne m ρ c main_v5 (by decide)).trans (at5_main_v5 m ρ c)

theorem at5_main_v6 : W5 m ρ c (Proc.devRef .tc main_v6) = W1 m ρ c (Proc.devRef .tc main_v6) :=
  (show StableHlo.after hostOps2 (W4 m ρ c) (Proc.devRef .tc main_v6) = W4 m ρ c (Proc.devRef .tc main_v6) from by host_keeps).trans (at4_main_v6 m ρ c)
theorem at6_main_v6 : W6 m ρ c (Proc.devRef .tc main_v6) = W1 m ρ c (Proc.devRef .tc main_v6) := (W6_of_ne m ρ c main_v6 (by decide)).trans (at5_main_v6 m ρ c)

theorem at5_main_arg8 : W5 m ρ c (Proc.devRef .tc main_arg8) = W1 m ρ c (Proc.devRef .tc main_arg8) :=
  (show StableHlo.after hostOps2 (W4 m ρ c) (Proc.devRef .tc main_arg8) = W4 m ρ c (Proc.devRef .tc main_arg8) from by host_keeps).trans (at4_main_arg8 m ρ c)
theorem at6_main_arg8 : W6 m ρ c (Proc.devRef .tc main_arg8) = W1 m ρ c (Proc.devRef .tc main_arg8) := (W6_of_ne m ρ c main_arg8 (by decide)).trans (at5_main_arg8 m ρ c)

theorem at5_main_arg10 : W5 m ρ c (Proc.devRef .tc main_arg10) = W1 m ρ c (Proc.devRef .tc main_arg10) :=
  (show StableHlo.after hostOps2 (W4 m ρ c) (Proc.devRef .tc main_arg10) = W4 m ρ c (Proc.devRef .tc main_arg10) from by host_keeps).trans (at4_main_arg10 m ρ c)
theorem at6_main_arg10 : W6 m ρ c (Proc.devRef .tc main_arg10) = W1 m ρ c (Proc.devRef .tc main_arg10) := (W6_of_ne m ρ c main_arg10 (by decide)).trans (at5_main_arg10 m ρ c)

end Cert.KernelIdeal.Hand

end
-- ==== Proof.Glue1.lean ====
/-
  The host stretch before the first relational layer, read against the reference's stages.

  The stretch gathers the source node's features along every edge, masks them by the edge's relation, sums them into the
  destination node and divides by the number of such edges (at least one): the per-relation mean aggregate, once per
  relation; and it slices the layer's weights and bias out of the stacked arguments. The reference performs the same
  operations in the same order on its own node features. So from a state whose node features, edge rows, edge types and
  weight arguments are the reference's, each buffer the layer's region reads holds the reference's stage: the two terms
  are the same operations of the same operands.
-/
import proofs.«171730_j7868380086413_1_alg».proof.Proof.Gen.KernelIdeal.Frame
import proofs.«171730_j7868380086413_1_alg».proof.Proof.Gen.ReferenceIdeal.Read
import proofs.«171730_j7868380086413_1_alg».proof.Proof.Keeps
import Idealize.ShloMosaic.Lib.ValueIdx
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Cert.ReferenceIdeal.Read

set_option maxHeartbeats 4000000 in
theorem glue1_h (W : Valuation τ sig (Elt Ideal)) (x0 : (⟨S100000x768, .f32⟩ : BufTy).Contents (Elt Ideal)) (x1 : (⟨S2x1000000, .i32⟩ : BufTy).Contents (Elt Ideal)) (x2 : (⟨S1000000, .i32⟩ : BufTy).Contents (Elt Ideal)) (x3 : (⟨S768x128, .f32⟩ : BufTy).Contents (Elt Ideal)) (x4 : (⟨S128, .f32⟩ : BufTy).Contents (Elt Ideal)) (x5 : (⟨S2x2x128x128, .f32⟩ : BufTy).Contents (Elt Ideal)) (x6 : (⟨S2x128x128, .f32⟩ : BufTy).Contents (Elt Ideal)) (x7 : (⟨S2x128, .f32⟩ : BufTy).Contents (Elt Ideal))
    (hh : W (Proc.devRef .tc main_v7) = val_main_v7 (F := Ideal) x0 x3 x4)
    (h1 : W (Proc.devRef .tc main_v1) = val_main_v1 (F := Ideal) x1) (h3 : W (Proc.devRef .tc main_v3) = val_main_v3 (F := Ideal) x1)
    (h2 : W (Proc.devRef .tc main_arg2) = x2) (h5 : W (Proc.devRef .tc main_arg5) = x5) (h6 : W (Proc.devRef .tc main_arg6) = x6) (h7 : W (Proc.devRef .tc main_arg7) = x7) :
    StableHlo.after hostOps1 W (Proc.devRef .tc main_v7) = val_main_v7 (F := Ideal) x0 x3 x4 := by
  refine Eq.trans ?_ hh
  host_keeps

set_option maxHeartbeats 4000000 in
theorem glue1_a0 (W : Valuation τ sig (Elt Ideal)) (x0 : (⟨S100000x768, .f32⟩ : BufTy).Contents (Elt Ideal)) (x1 : (⟨S2x1000000, .i32⟩ : BufTy).Contents (Elt Ideal)) (x2 : (⟨S1000000, .i32⟩ : BufTy).Contents (Elt Ideal)) (x3 : (⟨S768x128, .f32⟩ : BufTy).Contents (Elt Ideal)) (x4 : (⟨S128, .f32⟩ : BufTy).Contents (Elt Ideal)) (x5 : (⟨S2x2x128x128, .f32⟩ : BufTy).Contents (Elt Ideal)) (x6 : (⟨S2x128x128, .f32⟩ : BufTy).Contents (Elt Ideal)) (x7 : (⟨S2x128, .f32⟩ : BufTy).Contents (Elt Ideal))
    (hh : W (Proc.devRef .tc main_v7) = val_main_v7 (F := Ideal) x0 x3 x4)
    (h1 : W (Proc.devRef .tc main_v1) = val_main_v1 (F := Ideal) x1) (h3 : W (Proc.devRef .tc main_v3) = val_main_v3 (F := Ideal) x1)
    (h2 : W (Proc.devRef .tc main_arg2) = x2) (h5 : W (Proc.devRef .tc main_arg5) = x5) (h6 : W (Proc.devRef .tc main_arg6) = x6) (h7 : W (Proc.devRef .tc main_arg7) = x7) :
    StableHlo.after hostOps1 W (Proc.devRef .tc main_v31) = val_main_v39 (F := Ideal) x0 x1 x2 x3 x4 := by
  after_results_simp
  rw [hh, h1, h3, h2]
  rfl

set_option maxHeartbeats 4000000 in
theorem glue1_a1 (W : Valuation τ sig (Elt Ideal)) (x0 : (⟨S100000x768, .f32⟩ : BufTy).Contents (Elt Ideal)) (x1 : (⟨S2x1000000, .i32⟩ : BufTy).Contents (Elt Ideal)) (x2 : (⟨S1000000, .i32⟩ : BufTy).Contents (Elt Ideal)) (x3 : (⟨S768x128, .f32⟩ : BufTy).Contents (Elt Ideal)) (x4 : (⟨S128, .f32⟩ : BufTy).Contents (Elt Ideal)) (x5 : (⟨S2x2x128x128, .f32⟩ : BufTy).Contents (Elt Ideal)) (x6 : (⟨S2x128x128, .f32⟩ : BufTy).Contents (Elt Ideal)) (x7 : (⟨S2x128, .f32⟩ : BufTy).Contents (Elt Ideal))
    (hh : W (Proc.devRef .tc main_v7) = val_main_v7 (F := Ideal) x0 x3 x4)
    (h1 : W (Proc.devRef .tc main_v1) = val_main_v1 (F := Ideal) x1) (h3 : W (Proc.devRef .tc main_v3) = val_main_v3 (F := Ideal) x1)
    (h2 : W (Proc.devRef .tc main_arg2) = x2) (h5 : W (Proc.devRef .tc main_arg5) = x5) (h6 : W (Proc.devRef .tc main_arg6) = x6) (h7 : W (Proc.devRef .tc main_arg7) = x7) :
    StableHlo.after hostOps1 W (Proc.devRef .tc main_v48) = val_main_v60 (F := Ideal) x0 x1 x2 x3 x4 := by
  after_results_simp
  rw [hh, h1, h3, h2]
  rfl

set_option maxHeartbeats 4000000 in
theorem glue1_R (W : Valuation τ sig (Elt Ideal)) (x0 : (⟨S100000x768, .f32⟩ : BufTy).Contents (Elt Ideal)) (x1 : (⟨S2x1000000, .i32⟩ : BufTy).Contents (Elt Ideal)) (x2 : (⟨S1000000, .i32⟩ : BufTy).Contents (Elt Ideal)) (x3 : (⟨S768x128, .f32⟩ : BufTy).Contents (Elt Ideal)) (x4 : (⟨S128, .f32⟩ : BufTy).Contents (Elt Ideal)) (x5 : (⟨S2x2x128x128, .f32⟩ : BufTy).Contents (Elt Ideal)) (x6 : (⟨S2x128x128, .f32⟩ : BufTy).Contents (Elt Ideal)) (x7 : (⟨S2x128, .f32⟩ : BufTy).Contents (Elt Ideal))
    (hh : W (Proc.devRef .tc main_v7) = val_main_v7 (F := Ideal) x0 x3 x4)
    (h1 : W (Proc.devRef .tc main_v1) = val_main_v1 (F := Ideal) x1) (h3 : W (Proc.devRef .tc main_v3) = val_main_v3 (F := Ideal) x1)
    (h2 : W (Proc.devRef .tc main_arg2) = x2) (h5 : W (Proc.devRef .tc main_arg5) = x5) (h6 : W (Proc.devRef .tc main_arg6) = x6) (h7 : W (Proc.devRef .tc main_arg7) = x7) :
    StableHlo.after hostOps1 W (Proc.devRef .tc main_v53) = val_main_v16 (F := Ideal) x6 := by
  after_results_simp
  rw [h6]
  rfl

set_option maxHeartbeats 4000000 in
theorem glue1_W0 (W : Valuation τ sig (Elt Ideal)) (x0 : (⟨S100000x768, .f32⟩ : BufTy).Contents (Elt Ideal)) (x1 : (⟨S2x1000000, .i32⟩ : BufTy).Contents (Elt Ideal)) (x2 : (⟨S1000000, .i32⟩ : BufTy).Contents (Elt Ideal)) (x3 : (⟨S768x128, .f32⟩ : BufTy).Contents (Elt Ideal)) (x4 : (⟨S128, .f32⟩ : BufTy).Contents (Elt Ideal)) (x5 : (⟨S2x2x128x128, .f32⟩ : BufTy).Contents (Elt Ideal)) (x6 : (⟨S2x128x128, .f32⟩ : BufTy).Contents (Elt Ideal)) (x7 : (⟨S2x128, .f32⟩ : BufTy).Contents (Elt Ideal))
    (hh : W (Proc.devRef .tc main_v7) = val_main_v7 (F := Ideal) x0 x3 x4)
    (h1 : W (Proc.devRef .tc main_v1) = val_main_v1 (F := Ideal) x1) (h3 : W (Proc.devRef .tc main_v3) = val_main_v3 (F := Ideal) x1)
    (h2 : W (Proc.devRef .tc main_arg2) = x2) (h5 : W (Proc.devRef .tc main_arg5) = x5) (h6 : W (Proc.devRef .tc main_arg6) = x6) (h7 : W (Proc.devRef .tc main_arg7) = x7) :
    StableHlo.after hostOps1 W (Proc.devRef .tc main_v55) = val_main_v41 (F := Ideal) x5 := by
  after_results_simp
  rw [h5]
  rfl

set_option maxHeartbeats 4000000 in
theorem glue1_W1 (W : Valuation τ sig (Elt Ideal)) (x0 : (⟨S100000x768, .f32⟩ : BufTy).Contents (Elt Ideal)) (x1 : (⟨S2x1000000, .i32⟩ : BufTy).Contents (Elt Ideal)) (x2 : (⟨S1000000, .i32⟩ : BufTy).Contents (Elt Ideal)) (x3 : (⟨S768x128, .f32⟩ : BufTy).Contents (Elt Ideal)) (x4 : (⟨S128, .f32⟩ : BufTy).Contents (Elt Ideal)) (x5 : (⟨S2x2x128x128, .f32⟩ : BufTy).Contents (Elt Ideal)) (x6 : (⟨S2x128x128, .f32⟩ : BufTy).Contents (Elt Ideal)) (x7 : (⟨S2x128, .f32⟩ : BufTy).Contents (Elt Ideal))
    (hh : W (Proc.devRef .tc main_v7) = val_main_v7 (F := Ideal) x0 x3 x4)
    (h1 : W (Proc.devRef .tc main_v1) = val_main_v1 (F := Ideal) x1) (h3 : W (Proc.devRef .tc main_v3) = val_main_v3 (F := Ideal) x1)
    (h2 : W (Proc.devRef .tc main_arg2) = x2) (h5 : W (Proc.devRef .tc main_arg5) = x5) (h6 : W (Proc.devRef .tc main_arg6) = x6) (h7 : W (Proc.devRef .tc main_arg7) = x7) :
    StableHlo.after hostOps1 W (Proc.devRef .tc main_v57) = val_main_v62 (F := Ideal) x5 := by
  after_results_simp
  rw [h5]
  rfl

set_option maxHeartbeats 4000000 in
theorem glue1_b (W : Valuation τ sig (Elt Ideal)) (x0 : (⟨S100000x768, .f32⟩ : BufTy).Contents (Elt Ideal)) (x1 : (⟨S2x1000000, .i32⟩ : BufTy).Contents (Elt Ideal)) (x2 : (⟨S1000000, .i32⟩ : BufTy).Contents (Elt Ideal)) (x3 : (⟨S768x128, .f32⟩ : BufTy).Contents (Elt Ideal)) (x4 : (⟨S128, .f32⟩ : BufTy).Contents (Elt Ideal)) (x5 : (⟨S2x2x128x128, .f32⟩ : BufTy).Contents (Elt Ideal)) (x6 : (⟨S2x128x128, .f32⟩ : BufTy).Contents (Elt Ideal)) (x7 : (⟨S2x128, .f32⟩ : BufTy).Contents (Elt Ideal))
    (hh : W (Proc.devRef .tc main_v7) = val_main_v7 (F := Ideal) x0 x3 x4)
    (h1 : W (Proc.devRef .tc main_v1) = val_main_v1 (F := Ideal) x1) (h3 : W (Proc.devRef .tc main_v3) = val_main_v3 (F := Ideal) x1)
    (h2 : W (Proc.devRef .tc main_arg2) = x2) (h5 : W (Proc.devRef .tc main_arg5) = x5) (h6 : W (Proc.devRef .tc main_arg6) = x6) (h7 : W (Proc.devRef .tc main_arg7) = x7) :
    ∀ q : Fin 128, StableHlo.after hostOps1 W (Proc.devRef .tc main_v51) (ix2 (0 : Fin 1) q) = val_main_v19 (F := Ideal) x7 (ix1 q) := by
  intro q
  have e : StableHlo.after hostOps1 W (Proc.devRef .tc main_v51) = shapeCast S1x128 (val_main_v19 (F := Ideal) x7) shapeCasts_S128_S1x128 := by
    after_results_simp
    rw [h7]
    rfl
  exact (congrFun e _).trans (shapeCast_a_1a_apply _ _ 0 q)

end Cert.KernelIdeal.Hand

end
-- ==== Proof.Glue2.lean ====
/-
  The host stretch before the second relational layer, read against the reference's stages.

  The stretch gathers the source node's features along every edge, masks them by the edge's relation, sums them into the
  destination node and divides by the number of such edges (at least one): the per-relation mean aggregate, once per
  relation; and it slices the layer's weights and bias out of the stacked arguments. The reference performs the same
  operations in the same order on its own node features. So from a state whose node features, edge rows, edge types and
  weight arguments are the reference's, each buffer the layer's region reads holds the reference's stage: the two terms
  are the same operations of the same operands.
-/
import proofs.«171730_j7868380086413_1_alg».proof.Proof.Gen.KernelIdeal.Frame
import proofs.«171730_j7868380086413_1_alg».proof.Proof.Gen.ReferenceIdeal.Read
import proofs.«171730_j7868380086413_1_alg».proof.Proof.Keeps
import Idealize.ShloMosaic.Lib.ValueIdx
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Cert.ReferenceIdeal.Read

set_option maxHeartbeats 4000000 in
theorem glue2_h (W : Valuation τ sig (Elt Ideal)) (x0 : (⟨S100000x768, .f32⟩ : BufTy).Contents (Elt Ideal)) (x1 : (⟨S2x1000000, .i32⟩ : BufTy).Contents (Elt Ideal)) (x2 : (⟨S1000000, .i32⟩ : BufTy).Contents (Elt Ideal)) (x3 : (⟨S768x128, .f32⟩ : BufTy).Contents (Elt Ideal)) (x4 : (⟨S128, .f32⟩ : BufTy).Contents (Elt Ideal)) (x5 : (⟨S2x2x128x128, .f32⟩ : BufTy).Contents (Elt Ideal)) (x6 : (⟨S2x128x128, .f32⟩ : BufTy).Contents (Elt Ideal)) (x7 : (⟨S2x128, .f32⟩ : BufTy).Contents (Elt Ideal))
    (hh : W (Proc.devRef .tc main_v58) = val_main_v65 (F := Ideal) x0 x1 x2 x3 x4 x5 x6 x7)
    (h1 : W (Proc.devRef .tc main_v1) = val_main_v1 (F := Ideal) x1) (h3 : W (Proc.devRef .tc main_v3) = val_main_v3 (F := Ideal) x1)
    (h2 : W (Proc.devRef .tc main_arg2) = x2) (h5 : W (Proc.devRef .tc main_arg5) = x5) (h6 : W (Proc.devRef .tc main_arg6) = x6) (h7 : W (Proc.devRef .tc main_arg7) = x7) :
    StableHlo.after hostOps2 W (Proc.devRef .tc main_v58) = val_main_v65 (F := Ideal) x0 x1 x2 x3 x4 x5 x6 x7 := by
  refine Eq.trans ?_ hh
  host_keeps

set_option maxHeartbeats 4000000 in
theorem glue2_a0 (W : Valuation τ sig (Elt Ideal)) (x0 : (⟨S100000x768, .f32⟩ : BufTy).Contents (Elt Ideal)) (x1 : (⟨S2x1000000, .i32⟩ : BufTy).Contents (Elt Ideal)) (x2 : (⟨S1000000, .i32⟩ : BufTy).Contents (Elt Ideal)) (x3 : (⟨S768x128, .f32⟩ : BufTy).Contents (Elt Ideal)) (x4 : (⟨S128, .f32⟩ : BufTy).Contents (Elt Ideal)) (x5 : (⟨S2x2x128x128, .f32⟩ : BufTy).Contents (Elt Ideal)) (x6 : (⟨S2x128x128, .f32⟩ : BufTy).Contents (Elt Ideal)) (x7 : (⟨S2x128, .f32⟩ : BufTy).Contents (Elt Ideal))
    (hh : W (Proc.devRef .tc main_v58) = val_main_v65 (F := Ideal) x0 x1 x2 x3 x4 x5 x6 x7)
    (h1 : W (Proc.devRef .tc main_v1) = val_main_v1 (F := Ideal) x1) (h3 : W (Proc.devRef .tc main_v3) = val_main_v3 (F := Ideal) x1)
    (h2 : W (Proc.devRef .tc main_arg2) = x2) (h5 : W (Proc.devRef .tc main_arg5) = x5) (h6 : W (Proc.devRef .tc main_arg6) = x6) (h7 : W (Proc.devRef .tc main_arg7) = x7) :
    StableHlo.after hostOps2 W (Proc.devRef .tc main_v82) = val_main_v97 (F := Ideal) x0 x1 x2 x3 x4 x5 x6 x7 := by
  after_results_simp
  rw [hh, h1, h3, h2]
  rfl

set_option maxHeartbeats 4000000 in
theorem glue2_a1 (W : Valuation τ sig (Elt Ideal)) (x0 : (⟨S100000x768, .f32⟩ : BufTy).Contents (Elt Ideal)) (x1 : (⟨S2x1000000, .i32⟩ : BufTy).Contents (Elt Ideal)) (x2 : (⟨S1000000, .i32⟩ : BufTy).Contents (Elt Ideal)) (x3 : (⟨S768x128, .f32⟩ : BufTy).Contents (Elt Ideal)) (x4 : (⟨S128, .f32⟩ : BufTy).Contents (Elt Ideal)) (x5 : (⟨S2x2x128x128, .f32⟩ : BufTy).Contents (Elt Ideal)) (x6 : (⟨S2x128x128, .f32⟩ : BufTy).Contents (Elt Ideal)) (x7 : (⟨S2x128, .f32⟩ : BufTy).Contents (Elt Ideal))
    (hh : W (Proc.devRef .tc main_v58) = val_main_v65 (F := Ideal) x0 x1 x2 x3 x4 x5 x6 x7)
    (h1 : W (Proc.devRef .tc main_v1) = val_main_v1 (F := Ideal) x1) (h3 : W (Proc.devRef .tc main_v3) = val_main_v3 (F := Ideal) x1)
    (h2 : W (Proc.devRef .tc main_arg2) = x2) (h5 : W (Proc.devRef .tc main_arg5) = x5) (h6 : W (Proc.devRef .tc main_arg6) = x6) (h7 : W (Proc.devRef .tc main_arg7) = x7) :
    StableHlo.after hostOps2 W (Proc.devRef .tc main_v99) = val_main_v118 (F := Ideal) x0 x1 x2 x3 x4 x5 x6 x7 := by
  after_results_simp
  rw [hh, h1, h3, h2]
  rfl

set_option maxHeartbeats 4000000 in
theorem glue2_R (W : Valuation τ sig (Elt Ideal)) (x0 : (⟨S100000x768, .f32⟩ : BufTy).Contents (Elt Ideal)) (x1 : (⟨S2x1000000, .i32⟩ : BufTy).Contents (Elt Ideal)) (x2 : (⟨S1000000, .i32⟩ : BufTy).Contents (Elt Ideal)) (x3 : (⟨S768x128, .f32⟩ : BufTy).Contents (Elt Ideal)) (x4 : (⟨S128, .f32⟩ : BufTy).Contents (Elt Ideal)) (x5 : (⟨S2x2x128x128, .f32⟩ : BufTy).Contents (Elt Ideal)) (x6 : (⟨S2x128x128, .f32⟩ : BufTy).Contents (Elt Ideal)) (x7 : (⟨S2x128, .f32⟩ : BufTy).Contents (Elt Ideal))
    (hh : W (Proc.devRef .tc main_v58) = val_main_v65 (F := Ideal) x0 x1 x2 x3 x4 x5 x6 x7)
    (h1 : W (Proc.devRef .tc main_v1) = val_main_v1 (F := Ideal) x1) (h3 : W (Proc.devRef .tc main_v3) = val_main_v3 (F := Ideal) x1)
    (h2 : W (Proc.devRef .tc main_arg2) = x2) (h5 : W (Proc.devRef .tc main_arg5) = x5) (h6 : W (Proc.devRef .tc main_arg6) = x6) (h7 : W (Proc.devRef .tc main_arg7) = x7) :
    StableHlo.after hostOps2 W (Proc.devRef .tc main_v104) = val_main_v74 (F := Ideal) x6 := by
  after_results_simp
  rw [h6]
  rfl

set_option maxHeartbeats 4000000 in
theorem glue2_W0 (W : Valuation τ sig (Elt Ideal)) (x0 : (⟨S100000x768, .f32⟩ : BufTy).Contents (Elt Ideal)) (x1 : (⟨S2x1000000, .i32⟩ : BufTy).Contents (Elt Ideal)) (x2 : (⟨S1000000, .i32⟩ : BufTy).Contents (Elt Ideal)) (x3 : (⟨S768x128, .f32⟩ : BufTy).Contents (Elt Ideal)) (x4 : (⟨S128, .f32⟩ : BufTy).Contents (Elt Ideal)) (x5 : (⟨S2x2x128x128, .f32⟩ : BufTy).Contents (Elt Ideal)) (x6 : (⟨S2x128x128, .f32⟩ : BufTy).Contents (Elt Ideal)) (x7 : (⟨S2x128, .f32⟩ : BufTy).Contents (Elt Ideal))
    (hh : W (Proc.devRef .tc main_v58) = val_main_v65 (F := Ideal) x0 x1 x2 x3 x4 x5 x6 x7)
    (h1 : W (Proc.devRef .tc main_v1) = val_main_v1 (F := Ideal) x1) (h3 : W (Proc.devRef .tc main_v3) = val_main_v3 (F := Ideal) x1)
    (h2 : W (Proc.devRef .tc main_arg2) = x2) (h5 : W (Proc.devRef .tc main_arg5) = x5) (h6 : W (Proc.devRef .tc main_arg6) = x6) (h7 : W (Proc.devRef .tc main_arg7) = x7) :
    StableHlo.after hostOps2 W (Proc.devRef .tc main_v106) = val_main_v99 (F := Ideal) x5 := by
  after_results_simp
  rw [h5]
  rfl

set_option maxHeartbeats 4000000 in
theorem glue2_W1 (W : Valuation τ sig (Elt Ideal)) (x0 : (⟨S100000x768, .f32⟩ : BufTy).Contents (Elt Ideal)) (x1 : (⟨S2x1000000, .i32⟩ : BufTy).Contents (Elt Ideal)) (x2 : (⟨S1000000, .i32⟩ : BufTy).Contents (Elt Ideal)) (x3 : (⟨S768x128, .f32⟩ : BufTy).Contents (Elt Ideal)) (x4 : (⟨S128, .f32⟩ : BufTy).Contents (Elt Ideal)) (x5 : (⟨S2x2x128x128, .f32⟩ : BufTy).Contents (Elt Ideal)) (x6 : (⟨S2x128x128, .f32⟩ : BufTy).Contents (Elt Ideal)) (x7 : (⟨S2x128, .f32⟩ : BufTy).Contents (Elt Ideal))
    (hh : W (Proc.devRef .tc main_v58) = val_main_v65 (F := Ideal) x0 x1 x2 x3 x4 x5 x6 x7)
    (h1 : W (Proc.devRef .tc main_v1) = val_main_v1 (F := Ideal) x1) (h3 : W (Proc.devRef .tc main_v3) = val_main_v3 (F := Ideal) x1)
    (h2 : W (Proc.devRef .tc main_arg2) = x2) (h5 : W (Proc.devRef .tc main_arg5) = x5) (h6 : W (Proc.devRef .tc main_arg6) = x6) (h7 : W (Proc.devRef .tc main_arg7) = x7) :
    StableHlo.after hostOps2 W (Proc.devRef .tc main_v108) = val_main_v120 (F := Ideal) x5 := by
  after_results_simp
  rw [h5]
  rfl

set_option maxHeartbeats 4000000 in
theorem glue2_b (W : Valuation τ sig (Elt Ideal)) (x0 : (⟨S100000x768, .f32⟩ : BufTy).Contents (Elt Ideal)) (x1 : (⟨S2x1000000, .i32⟩ : BufTy).Contents (Elt Ideal)) (x2 : (⟨S1000000, .i32⟩ : BufTy).Contents (Elt Ideal)) (x3 : (⟨S768x128, .f32⟩ : BufTy).Contents (Elt Ideal)) (x4 : (⟨S128, .f32⟩ : BufTy).Contents (Elt Ideal)) (x5 : (⟨S2x2x128x128, .f32⟩ : BufTy).Contents (Elt Ideal)) (x6 : (⟨S2x128x128, .f32⟩ : BufTy).Contents (Elt Ideal)) (x7 : (⟨S2x128, .f32⟩ : BufTy).Contents (Elt Ideal))
    (hh : W (Proc.devRef .tc main_v58) = val_main_v65 (F := Ideal) x0 x1 x2 x3 x4 x5 x6 x7)
    (h1 : W (Proc.devRef .tc main_v1) = val_main_v1 (F := Ideal) x1) (h3 : W (Proc.devRef .tc main_v3) = val_main_v3 (F := Ideal) x1)
    (h2 : W (Proc.devRef .tc main_arg2) = x2) (h5 : W (Proc.devRef .tc main_arg5) = x5) (h6 : W (Proc.devRef .tc main_arg6) = x6) (h7 : W (Proc.devRef .tc main_arg7) = x7) :
    ∀ q : Fin 128, StableHlo.after hostOps2 W (Proc.devRef .tc main_v102) (ix2 (0 : Fin 1) q) = val_main_v77 (F := Ideal) x7 (ix1 q) := by
  intro q
  have e : StableHlo.after hostOps2 W (Proc.devRef .tc main_v102) = shapeCast S1x128 (val_main_v77 (F := Ideal) x7) shapeCasts_S128_S1x128 := by
    after_results_simp
    rw [h7]
    rfl
  exact (congrFun e _).trans (shapeCast_a_1a_apply _ _ 0 q)

end Cert.KernelIdeal.Hand

end
-- ==== Proof.Bridge.lean ====
/-
  The idealized kernel's result is the reference's last stage of the same arguments.

  Segment by segment: the first region leaves the input projection of x, W_in and the reshaped b_in, which is the
  reference's first dense stage. The host stretch after it computes, from those node features, the same aggregates and
  slices the same weights as the reference, so the second region leaves the reference's first relational layer (the bias
  is added last in the kernel and first in the reference: one sum). The same again for the second layer, on the first
  layer's output. The last region leaves the pooling head of the second layer's output, W_pool, W_out and the two reshaped
  biases: the reference's result.
-/
import proofs.«171730_j7868380086413_1_alg».proof.Proof.KRun
import proofs.«171730_j7868380086413_1_alg».proof.Proof.Reg0
import proofs.«171730_j7868380086413_1_alg».proof.Proof.Reg1
import proofs.«171730_j7868380086413_1_alg».proof.Proof.Reg2
import proofs.«171730_j7868380086413_1_alg».proof.Proof.Reg3
import proofs.«171730_j7868380086413_1_alg».proof.Proof.RefStages
import proofs.«171730_j7868380086413_1_alg».proof.Proof.Carry
import proofs.«171730_j7868380086413_1_alg».proof.Proof.Glue1
import proofs.«171730_j7868380086413_1_alg».proof.Proof.Glue2

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Cert.ReferenceIdeal.Read Cert.ReferenceIdeal.RefStages Cert.Rgcn

variable (m : (ℓ : Loc nD τ sig) → Buf (Elt Ideal) ℓ) (ρ : Dev nD → PrngReg) (c : Dev nD)

/-- After the first region the node features are the reference's input projection. -/
theorem stage0 : W2 m ρ c (Proc.devRef .tc main_v7) = val_main_v7 (F := Ideal) (m ((c : Thread nD τ).loc main_arg0)) (m ((c : Thread nD τ).loc main_arg3)) (m ((c : Thread nD τ).loc main_arg4)) := by
  refine (W2_arr m ρ c 3).trans ?_
  refine (final0 (V1 m ρ) c).trans ?_
  show project (W1 m ρ c (Proc.devRef .tc main_arg0)) (W1 m ρ c (Proc.devRef .tc main_arg3)) (W1 m ρ c (Proc.devRef .tc main_v4)) = _
  rw [W1_arg0, W1_arg3]
  exact (project_eq _ _ _ _ (W1_v4 m ρ c)).symm

/-- After the second region the node features are the reference's first relational layer. -/
theorem stage1 : W4 m ρ c (Proc.devRef .tc main_v58) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 7).trans ?_
  refine (final1 (V3 m ρ) c).trans ?_
  show layer (StableHlo.after hostOps1 (W2 m ρ c) (Proc.devRef .tc main_v7)) (StableHlo.after hostOps1 (W2 m ρ c) (Proc.devRef .tc main_v31))
    (StableHlo.after hostOps1 (W2 m ρ c) (Proc.devRef .tc main_v48)) (StableHlo.after hostOps1 (W2 m ρ c) (Proc.devRef .tc main_v53))
    (StableHlo.after hostOps1 (W2 m ρ c) (Proc.devRef .tc main_v55)) (StableHlo.after hostOps1 (W2 m ρ c) (Proc.devRef .tc main_v57))
    (StableHlo.after hostOps1 (W2 m ρ c) (Proc.devRef .tc main_v51)) = _
  rw [glue1_h (W2 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (stage0 m ρ c) ((at2_main_v1 m ρ c).trans (W1_v1 m ρ c)) ((at2_main_v3 m ρ c).trans (W1_v3 m ρ c))
    ((at2_main_arg2 m ρ c).trans (W1_arg2 m ρ c)) ((at2_main_arg5 m ρ c).trans (W1_arg5 m ρ c))
    ((at2_main_arg6 m ρ c).trans (W1_arg6 m ρ c)) ((at2_main_arg7 m ρ c).trans (W1_arg7 m ρ c)),
    glue1_a0 (W2 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (stage0 m ρ c) ((at2_main_v1 m ρ c).trans (W1_v1 m ρ c)) ((at2_main_v3 m ρ c).trans (W1_v3 m ρ c))
    ((at2_main_arg2 m ρ c).trans (W1_arg2 m ρ c)) ((at2_main_arg5 m ρ c).trans (W1_arg5 m ρ c))
    ((at2_main_arg6 m ρ c).trans (W1_arg6 m ρ c)) ((at2_main_arg7 m ρ c).trans (W1_arg7 m ρ c)),
    glue1_a1 (W2 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (stage0 m ρ c) ((at2_main_v1 m ρ c).trans (W1_v1 m ρ c)) ((at2_main_v3 m ρ c).trans (W1_v3 m ρ c))
    ((at2_main_arg2 m ρ c).trans (W1_arg2 m ρ c)) ((at2_main_arg5 m ρ c).trans (W1_arg5 m ρ c))
    ((at2_main_arg6 m ρ c).trans (W1_arg6 m ρ c)) ((at2_main_arg7 m ρ c).trans (W1_arg7 m ρ c)),
    glue1_R (W2 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (stage0 m ρ c) ((at2_main_v1 m ρ c).trans (W1_v1 m ρ c)) ((at2_main_v3 m ρ c).trans (W1_v3 m ρ c))
    ((at2_main_arg2 m ρ c).trans (W1_arg2 m ρ c)) ((at2_main_arg5 m ρ c).trans (W1_arg5 m ρ c))
    ((at2_main_arg6 m ρ c).trans (W1_arg6 m ρ c)) ((at2_main_arg7 m ρ c).trans (W1_arg7 m ρ c)),
    glue1_W0 (W2 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (stage0 m ρ c) ((at2_main_v1 m ρ c).trans (W1_v1 m ρ c)) ((at2_main_v3 m ρ c).trans (W1_v3 m ρ c))
    ((at2_main_arg2 m ρ c).trans (W1_arg2 m ρ c)) ((at2_main_arg5 m ρ c).trans (W1_arg5 m ρ c))
    ((at2_main_arg6 m ρ c).trans (W1_arg6 m ρ c)) ((at2_main_arg7 m ρ c).trans (W1_arg7 m ρ c)),
    glue1_W1 (W2 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (stage0 m ρ c) ((at2_main_v1 m ρ c).trans (W1_v1 m ρ c)) ((at2_main_v3 m ρ c).trans (W1_v3 m ρ c))
    ((at2_main_arg2 m ρ c).trans (W1_arg2 m ρ c)) ((at2_main_arg5 m ρ c).trans (W1_arg5 m ρ c))
    ((at2_main_arg6 m ρ c).trans (W1_arg6 m ρ c)) ((at2_main_arg7 m ρ c).trans (W1_arg7 m ρ c))]
  exact (layer0_eq _ _ _ _ _ _ _ _ _ (glue1_b (W2 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (stage0 m ρ c) ((at2_main_v1 m ρ c).trans (W1_v1 m ρ c)) ((at2_main_v3 m ρ c).trans (W1_v3 m ρ c))
    ((at2_main_arg2 m ρ c).trans (W1_arg2 m ρ c)) ((at2_main_arg5 m ρ c).trans (W1_arg5 m ρ c))
    ((at2_main_arg6 m ρ c).trans (W1_arg6 m ρ c)) ((at2_main_arg7 m ρ c).trans (W1_arg7 m ρ c)))).symm

/-- After the third region the node features are the reference's second relational layer. -/
theorem stage2 : W6 m ρ c (Proc.devRef .tc main_v109) = val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 7).trans ?_
  refine (final2 (V5 m ρ) c).trans ?_
  show layer (StableHlo.after hostOps2 (W4 m ρ c) (Proc.devRef .tc main_v58)) (StableHlo.after hostOps2 (W4 m ρ c) (Proc.devRef .tc main_v82))
    (StableHlo.after hostOps2 (W4 m ρ c) (Proc.devRef .tc main_v99)) (StableHlo.after hostOps2 (W4 m ρ c) (Proc.devRef .tc main_v104))
    (StableHlo.after hostOps2 (W4 m ρ c) (Proc.devRef .tc main_v106)) (StableHlo.after hostOps2 (W4 m ρ c) (Proc.devRef .tc main_v108))
    (StableHlo.after hostOps2 (W4 m ρ c) (Proc.devRef .tc main_v102)) = _
  rw [glue2_h (W4 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (stage1 m ρ c) ((at4_main_v1 m ρ c).trans (W1_v1 m ρ c)) ((at4_main_v3 m ρ c).trans (W1_v3 m ρ c))
    ((at4_main_arg2 m ρ c).trans (W1_arg2 m ρ c)) ((at4_main_arg5 m ρ c).trans (W1_arg5 m ρ c))
    ((at4_main_arg6 m ρ c).trans (W1_arg6 m ρ c)) ((at4_main_arg7 m ρ c).trans (W1_arg7 m ρ c)),
    glue2_a0 (W4 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (stage1 m ρ c) ((at4_main_v1 m ρ c).trans (W1_v1 m ρ c)) ((at4_main_v3 m ρ c).trans (W1_v3 m ρ c))
    ((at4_main_arg2 m ρ c).trans (W1_arg2 m ρ c)) ((at4_main_arg5 m ρ c).trans (W1_arg5 m ρ c))
    ((at4_main_arg6 m ρ c).trans (W1_arg6 m ρ c)) ((at4_main_arg7 m ρ c).trans (W1_arg7 m ρ c)),
    glue2_a1 (W4 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (stage1 m ρ c) ((at4_main_v1 m ρ c).trans (W1_v1 m ρ c)) ((at4_main_v3 m ρ c).trans (W1_v3 m ρ c))
    ((at4_main_arg2 m ρ c).trans (W1_arg2 m ρ c)) ((at4_main_arg5 m ρ c).trans (W1_arg5 m ρ c))
    ((at4_main_arg6 m ρ c).trans (W1_arg6 m ρ c)) ((at4_main_arg7 m ρ c).trans (W1_arg7 m ρ c)),
    glue2_R (W4 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (stage1 m ρ c) ((at4_main_v1 m ρ c).trans (W1_v1 m ρ c)) ((at4_main_v3 m ρ c).trans (W1_v3 m ρ c))
    ((at4_main_arg2 m ρ c).trans (W1_arg2 m ρ c)) ((at4_main_arg5 m ρ c).trans (W1_arg5 m ρ c))
    ((at4_main_arg6 m ρ c).trans (W1_arg6 m ρ c)) ((at4_main_arg7 m ρ c).trans (W1_arg7 m ρ c)),
    glue2_W0 (W4 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (stage1 m ρ c) ((at4_main_v1 m ρ c).trans (W1_v1 m ρ c)) ((at4_main_v3 m ρ c).trans (W1_v3 m ρ c))
    ((at4_main_arg2 m ρ c).trans (W1_arg2 m ρ c)) ((at4_main_arg5 m ρ c).trans (W1_arg5 m ρ c))
    ((at4_main_arg6 m ρ c).trans (W1_arg6 m ρ c)) ((at4_main_arg7 m ρ c).trans (W1_arg7 m ρ c)),
    glue2_W1 (W4 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (stage1 m ρ c) ((at4_main_v1 m ρ c).trans (W1_v1 m ρ c)) ((at4_main_v3 m ρ c).trans (W1_v3 m ρ c))
    ((at4_main_arg2 m ρ c).trans (W1_arg2 m ρ c)) ((at4_main_arg5 m ρ c).trans (W1_arg5 m ρ c))
    ((at4_main_arg6 m ρ c).trans (W1_arg6 m ρ c)) ((at4_main_arg7 m ρ c).trans (W1_arg7 m ρ c))]
  exact (layer1_eq _ _ _ _ _ _ _ _ _ (glue2_b (W4 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (stage1 m ρ c) ((at4_main_v1 m ρ c).trans (W1_v1 m ρ c)) ((at4_main_v3 m ρ c).trans (W1_v3 m ρ c))
    ((at4_main_arg2 m ρ c).trans (W1_arg2 m ρ c)) ((at4_main_arg5 m ρ c).trans (W1_arg5 m ρ c))
    ((at4_main_arg6 m ρ c).trans (W1_arg6 m ρ c)) ((at4_main_arg7 m ρ c).trans (W1_arg7 m ρ c)))).symm

/-- THE RESULT: after the last region the result buffer holds the reference's last stage of the launch arguments. -/
theorem kernel_result : W7 m ρ c (Proc.devRef .tc main_v110) = val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W7_arr m ρ c 5).trans ?_
  refine (final3 (V6 m ρ) c).trans ?_
  show pool (W6 m ρ c (Proc.devRef .tc main_v109)) (W6 m ρ c (Proc.devRef .tc main_arg8)) (W6 m ρ c (Proc.devRef .tc main_v5))
    (W6 m ρ c (Proc.devRef .tc main_arg10)) (W6 m ρ c (Proc.devRef .tc main_v6)) = _
  rw [stage2, (at6_main_arg8 m ρ c).trans (W1_arg8 m ρ c), (at6_main_arg10 m ρ c).trans (W1_arg10 m ρ c)]
  exact (pool_eq _ _ _ _ _ _ _ _ _ _ _ _ _ _
    (fun q => (congrFun (at6_main_v5 m ρ c) _).trans (W1_v5 m ρ c q))
    (fun q => (congrFun (at6_main_v6 m ρ c) _).trans (W1_v6 m ρ c q))).symm

end Cert.KernelIdeal.Hand

end
-- ==== Proof.lean ====
/-
  Equivalence over the extended reals of a relational graph network's Pallas implementation and its jnp reference.

  The network projects 768 input features of 100000 nodes to 128, applies two relational layers — each adds, to the node's
  own features through a root weight, the mean of the source features over the node's incoming edges of each of two
  relations through that relation's weight, and a bias, and rectifies — and ends with a two-layer pooling head. The kernel
  runs the four dense stages as pipelined regions over row blocks of the nodes and leaves the edge gather and the
  per-relation segment means to host operations between them; the reference is host operations throughout.

  At the ideal instance a change of float format is the identity and a matrix product is the plain sum over the shared
  axis, so each region's output array is its stage's whole-array function of the arrays it found (Reg0 … Reg3, over the
  stored values of Pay), the host stretches between the regions are the reference's own operations on the same operands
  (Glue1, Glue2), and the reference's stages read index by index are the same functions (RefStages). The one place the two
  programs differ is the order in which a layer's bias is added to its three products, and addition of extended reals is
  commutative and associative: no finiteness of the inputs is used. The kernel's run with its result kept is KRun; the
  composition of the stages is Bridge.

  The three frames are the generated ones (the reference's is its run with the result dropped); the idealization rewrote
  no operation, so its preservation claim is trivial.
-/
import proofs.«171730_j7868380086413_1_alg».proof.Defs
import proofs.«171730_j7868380086413_1_alg».proof.Proof.Gen.Kernel
import proofs.«171730_j7868380086413_1_alg».proof.Proof.Gen.Kernel.Skeleton
import proofs.«171730_j7868380086413_1_alg».proof.Proof.Gen.Kernel.Launch
import proofs.«171730_j7868380086413_1_alg».proof.Proof.Gen.Kernel.Points
import proofs.«171730_j7868380086413_1_alg».proof.Proof.Gen.Kernel.Frame
import proofs.«171730_j7868380086413_1_alg».proof.Proof.Gen.KernelIdeal
import proofs.«171730_j7868380086413_1_alg».proof.Proof.Gen.KernelIdeal.Skeleton
import proofs.«171730_j7868380086413_1_alg».proof.Proof.Gen.KernelIdeal.Launch
import proofs.«171730_j7868380086413_1_alg».proof.Proof.Gen.KernelIdeal.Points
import proofs.«171730_j7868380086413_1_alg».proof.Proof.Gen.KernelIdeal.Frame
import proofs.«171730_j7868380086413_1_alg».proof.Proof.Gen.ReferenceIdeal
import proofs.«171730_j7868380086413_1_alg».proof.Proof.Gen.Pre_finite_inputs
import proofs.«171730_j7868380086413_1_alg».proof.Proof.Gen.ReferenceIdeal.Run
import proofs.«171730_j7868380086413_1_alg».proof.Proof.Gen.ReferenceIdeal.Read
import proofs.«171730_j7868380086413_1_alg».proof.Proof.KRun
import proofs.«171730_j7868380086413_1_alg».proof.Proof.Bridge
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the reference's last stage of the arguments: the kernel's result buffer by the composition of
    its four stages, the reference's by its own run; the arguments agree. -/
theorem algebraic : Cert.algebraic_KernelIdeal_ReferenceIdeal := by
  intro m ρ m' ρ' _ hagree
  refine ⟨fun c => Cert.KernelIdeal.Gen.W7 m ρ c (Proc.devRef .tc Cert.KernelIdeal.main_v110),
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v132_eq, h0, h1, h2, h3, h4, h5, h6, h7, h8, h9, h10, h11]
  exact (Cert.KernelIdeal.Hand.kernel_result m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
